-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S32x64 .f32) (main_arg6 : FVec F S32 .f32) (main_arg7 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S64x32 : Shape := ⟨2, ![64, 32]⟩
abbrev S1x64 : Shape := ⟨2, ![1, 64]⟩
abbrev S100000x32 : Shape := ⟨2, ![100000, 32]⟩
abbrev S2000x64 : Shape := ⟨2, ![2000, 64]⟩
abbrev S2000x1 : Shape := ⟨2, ![2000, 1]⟩
abbrev S2000x32 : Shape := ⟨2, ![2000, 32]⟩
abbrev S1000000x32 : Shape := ⟨2, ![1000000, 32]⟩
abbrev S1x32 : Shape := ⟨2, ![1, 32]⟩
abbrev S5000x32 : Shape := ⟨2, ![5000, 32]⟩
abbrev S5000x1 : Shape := ⟨2, ![5000, 1]⟩
abbrev S5000x64 : Shape := ⟨2, ![5000, 64]⟩

abbrev nBuf : Space → Nat
  | .hbm => 64
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S_, .f32⟩
  | .hbm, ⟨35, _⟩ => ⟨S100000x64, .f32⟩
  | .hbm, ⟨36, _⟩ => ⟨S1000000x1, .i32⟩
  | .hbm, ⟨37, _⟩ => ⟨S100000x64, .f32⟩
  | .hbm, ⟨38, _⟩ => ⟨S64x64, .f32⟩
  | .hbm, ⟨39, _⟩ => ⟨S64x64, .bf16⟩
  | .hbm, ⟨40, _⟩ => ⟨S64x64, .f32⟩
  | .hbm, ⟨41, _⟩ => ⟨S64x64, .bf16⟩
  | .hbm, ⟨42, _⟩ => ⟨S64x32, .f32⟩
  | .hbm, ⟨43, _⟩ => ⟨S64x32, .bf16⟩
  | .hbm, ⟨44, _⟩ => ⟨S1x64, .f32⟩
  | .hbm, ⟨45, _⟩ => ⟨S100000x64, .f32⟩
  | .hbm, ⟨46, _⟩ => ⟨S100000x32, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x32, .f32⟩
  | .hbm, ⟨56, _⟩ => ⟨S_, .f32⟩
  | .hbm, ⟨57, _⟩ => ⟨S100000x32, .f32⟩
  | .hbm, ⟨58, _⟩ => ⟨S1000000x1, .i32⟩
  | .hbm, ⟨59, _⟩ => ⟨S100000x32, .f32⟩
  | .hbm, ⟨60, _⟩ => ⟨S64x32, .f32⟩
  | .hbm, ⟨61, _⟩ => ⟨S64x32, .bf16⟩
  | .hbm, ⟨62, _⟩ => ⟨S1x32, .f32⟩
  | .hbm, ⟨63, _⟩ => ⟨S100000x32, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x64, .bf16⟩
  | .local _ .vmem, ⟨7, _⟩ => ⟨S64x64, .bf16⟩
  | .local _ .vmem, ⟨8, _⟩ => ⟨S1x64, .f32⟩
  | .local _ .vmem, ⟨9, _⟩ => ⟨S64x32, .bf16⟩
  | .local _ .vmem, ⟨10, _⟩ => ⟨S2000x64, .f32⟩
  | .local _ .vmem, ⟨11, _⟩ => ⟨S2000x64, .f32⟩
  | .local _ .vmem, ⟨12, _⟩ => ⟨S2000x32, .f32⟩
  | .local _ .vmem, ⟨13, _⟩ => ⟨S2000x32, .f32⟩
  | .local _ .vmem, ⟨14, _⟩ => ⟨S5000x32, .f32⟩
  | .local _ .vmem, ⟨15, _⟩ => ⟨S5000x32, .f32⟩
  | .local _ .vmem, ⟨16, _⟩ => ⟨S5000x1, .f32⟩
  | .local _ .vmem, ⟨17, _⟩ => ⟨S5000x1, .f32⟩
  | .local _ .vmem, ⟨18, _⟩ => ⟨S5000x64, .f32⟩
  | .local _ .vmem, ⟨19, _⟩ => ⟨S5000x64, .f32⟩
  | .local _ .vmem, ⟨20, _⟩ => ⟨S64x32, .bf16⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S100000x64 : S_.BroadcastsInDim S100000x64 (![] : Fin 0 → Fin S100000x64.rank)
  transposes_S64x64_S64x64_1_0 : S64x64.Transposes [1, 0] S64x64
  bitsLt_bf16_f32 : FTy.bits .bf16 < FTy.bits .f32
  transposes_S32x64_S64x32_1_0 : S32x64.Transposes [1, 0] S64x32
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .bf16 = 32 ∨ (Rect.block (s := S64x32) S64x32.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x32.size a ≤ S100000x32.size a
  hwx0_8 : ∀ i : grid0.Coords, EltTy.bits .f32 = 32 ∨ (Rect.block (s := S100000x32) S2000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .bf16 = 32 ∨ (Rect.block (s := S64x32) S64x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30_0) S2000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v30_1) S2000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v40) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30_0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x32, .f32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x32, .f32⟩
  | .hbm, ⟨78, _⟩ => ⟨S64x32, .f32⟩
  | .hbm, ⟨79, _⟩ => ⟨S100000x32, .f32⟩
  | .hbm, ⟨80, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The kernel program's run with its result named.

  The program is two launches among host operations. Its run is the library's launch over the generated list of
  segments; the last thread state holds every unscoped buffer at the contents the fold through the program leaves
  (`Gen.W4`), so the result buffer can be read there exactly as the argument buffers are. After the run the result
  is `Gen.W4 … main_v44`, and the arguments are as launched.
-/
import proofs.«164449_j3186865734220_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's contents and every
    argument as launched. -/
theorem run : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«164449_j3186865734220_2_alg».proof.Proof.LibDenseLayer
import proofs.«164449_j3186865734220_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.Payload.lean ====
/-
  The two kernel bodies, read entry by entry on the extended reals.

  The first body works on a block of 2000 nodes. Entry (p, q) of what it stores as the hidden features is

      max ((∑ k, (a (p, k) · s (p, 0)) · wl (k, q) + ∑ k, x (p, k) · wr (k, q)) + b (0, q)) 0,

  a the block of aggregated neighbour features, s the column of reciprocal neighbour counts, x the block of node
  features, wl and wr the two (transposed) weight matrices and b the bias row; entry (p, q) of what it stores as the
  projected hidden features is ∑ k, hidden (p, k) · w (k, q). The second body works on a block of 5000 nodes; entry (p, q)
  of what it stores is

      ((∑ k, h (p, k) · w (k, q)) + a (p, q) · s (p, 0)) + b (0, q).

  A change of float format is the identity on the extended reals, and a product accumulated into zero is the plain sum of
  products.
-/
import proofs.«164449_j3186865734220_2_alg».proof.Proof.Gen.KernelIdeal.Skeleton
import proofs.«164449_j3186865734220_2_alg».proof.Proof.LibPlainMatmul
import proofs.«164449_j3186865734220_2_alg».proof.Proof.LibColumn
import proofs.«164449_j3186865734220_2_alg».proof.Proof.LibLayerForms
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Sage.Payload

open Cert.KernelIdeal Cert.KernelIdeal.Gen
open Idealize.ShloMosaic Idealize.ShloMosaic.ValueIdx

/-- Entry (p, q) of the hidden features the first body stores. -/
theorem hidden_apply (a x : FVec Ideal S2000x64 .f32) (s : FVec Ideal S2000x1 .f32) (wl wr : FVec Ideal S64x64 .bf16)
    (b : FVec Ideal S1x64 .f32) (p : Fin 2000) (q : Fin 64) :
    k0_pay1 (F := Ideal) a s x wl wr b (ix2 p q)
      = max ((∑ k : Fin 64, (a (ix2 p k) * s (ix2 p (0 : Fin 1))) * wl (ix2 k q) + ∑ k : Fin 64, x (ix2 p k) * wr (ix2 k q))
          + b (ix2 (0 : Fin 1) q)) 0 := by
  unfold k0_pay1
  simp only [shapeCast_self]
  rw [Cert.LayerForms.vec_relu]
  show max ((FloatOps.matmul (F := Ideal) dot_S2000x64_S64x64_S2000x64_1_0_0_1_n_n none
        (truncf .bf16 (mulf a (broadcastTo S2000x64 s broadcasts_S2000x1_S2000x64)) bitsLt_bf16_f32) wl
        (constant S2000x64 .f32 0x00000000#32) (ix2 p q)
      + FloatOps.matmul (F := Ideal) dot_S2000x64_S64x64_S2000x64_1_0_0_1_n_n none (truncf .bf16 x bitsLt_bf16_f32) wr
        (constant S2000x64 .f32 0x00000000#32) (ix2 p q))
      + broadcastTo S2000x64 b broadcasts_S1x64_S2000x64 (ix2 p q)) 0 = _
  rw [Cert.LibPlainMatmul.matmul_plain_zero_apply dot_S2000x64_S64x64_S2000x64_1_0_0_1_n_n rfl,
    Cert.LibPlainMatmul.matmul_plain_zero_apply dot_S2000x64_S64x64_S2000x64_1_0_0_1_n_n rfl, broadcastTo_1b_ab_apply]
  refine congrArg (fun v => max ((v + _) + _) 0) (Finset.sum_congr rfl fun k _ => ?_)
  show (a (ix2 p k) * broadcastTo S2000x64 s broadcasts_S2000x1_S2000x64 (ix2 p k)) * wl (ix2 k q) = _
  rw [Cert.LibColumn.broadcastTo_a1_ab_apply]

/-- Entry (p, q) of the projected hidden features the first body stores. -/
theorem proj_apply (a x : FVec Ideal S2000x64 .f32) (s : FVec Ideal S2000x1 .f32) (wl wr : FVec Ideal S64x64 .bf16)
    (b : FVec Ideal S1x64 .f32) (w : FVec Ideal S64x32 .bf16) (p : Fin 2000) (q : Fin 32) :
    k0_pay2 (F := Ideal) a s x wl wr b w (ix2 p q)
      = ∑ k : Fin 64, k0_pay1 (F := Ideal) a s x wl wr b (ix2 p k) * w (ix2 k q) := by
  unfold k0_pay2
  simp only [shapeCast_self]
  show FloatOps.matmul (F := Ideal) dot_S2000x64_S64x32_S2000x32_1_0_0_1_n_n none
      (truncf .bf16 (k0_pay1 (F := Ideal) a s x wl wr b) bitsLt_bf16_f32) w (constant S2000x32 .f32 0x00000000#32) (ix2 p q) = _
  rw [Cert.LibPlainMatmul.matmul_plain_zero_apply dot_S2000x64_S64x32_S2000x32_1_0_0_1_n_n rfl]
  rfl

/-- Entry (p, q) of what the second body stores. -/
theorem out_apply (a : FVec Ideal S5000x32 .f32) (s : FVec Ideal S5000x1 .f32) (h : FVec Ideal S5000x64 .f32)
    (w : FVec Ideal S64x32 .bf16) (b : FVec Ideal S1x32 .f32) (p : Fin 5000) (q : Fin 32) :
    k1_pay1 (F := Ideal) a s h w b (ix2 p q)
      = ((∑ k : Fin 64, h (ix2 p k) * w (ix2 k q)) + a (ix2 p q) * s (ix2 p (0 : Fin 1))) + b (ix2 (0 : Fin 1) q) := by
  unfold k1_pay1
  simp only [shapeCast_self]
  show (FloatOps.matmul (F := Ideal) dot_S5000x64_S64x32_S5000x32_1_0_0_1_n_n none (truncf .bf16 h bitsLt_bf16_f32) w
        (constant S5000x32 .f32 0x00000000#32) (ix2 p q)
      + a (ix2 p q) * broadcastTo S5000x32 s broadcasts_S5000x1_S5000x32 (ix2 p q))
      + broadcastTo S5000x32 b broadcasts_S1x32_S5000x32 (ix2 p q) = _
  rw [Cert.LibPlainMatmul.matmul_plain_zero_apply dot_S5000x64_S64x32_S5000x32_1_0_0_1_n_n rfl, broadcastTo_1b_ab_apply,
    Cert.LibColumn.broadcastTo_a1_ab_apply]
  rfl

end Cert.Sage.Payload

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibMeanProj.lean ====
/-
  Mean aggregation commutes with a linear projection, for real data read on the extended reals.

  Let `L` be a finite set of neighbours, `g e k` the `k`-th real feature of neighbour `e`, `w k` a real weight and
  `d ≠ 0` a real count. Projecting every neighbour first and averaging the projections,

      (0 + ∑ e ∈ L, ∑ k, g e k · w k) / d,

  gives what averaging every feature first and projecting the averages gives,

      ∑ k, ((0 + ∑ e ∈ L, g e k) / d) · w k.

  On the reals this is distributivity and an exchange of the two sums. On the extended reals it needs every factor to be
  real (at an infinity distributivity fails), which is why the statement is about images of reals. The division is the
  extended reals' own, `Ideal.div`, which by a nonzero real is the product with its reciprocal.

  Also here: the closure of "is the image of a real" under the operations a dense layer uses.
-/
import Idealize.ShloMosaic.PureOps.Ideal
import proofs.«164449_j3186865734220_2_alg».proof.Proof.LibSumSwap

noncomputable section

open scoped BigOperators

namespace Cert.LibMeanProj

open Idealize.ShloMosaic

/-- A real divided by a nonzero real, on the extended reals, is the image of the real quotient. -/
theorem div_coe_coe (a d : ℝ) (hd : d ≠ 0) : Ideal.div (a : EReal) (d : EReal) = ((a / d : ℝ) : EReal) := by
  rw [Ideal.div_coe hd, ← EReal.coe_mul, mul_one_div]

/-- Projecting then averaging is averaging then projecting. -/
theorem mean_proj {ι κ : Type*} [Fintype κ] (L : Finset ι) (g : ι → κ → ℝ) (w : κ → ℝ) (d : ℝ) (hd : d ≠ 0) :
    Ideal.div (0 + ∑ e ∈ L, ∑ k, (g e k : EReal) * (w k : EReal)) (d : EReal)
      = ∑ k, Ideal.div (0 + ∑ e ∈ L, (g e k : EReal)) (d : EReal) * (w k : EReal) := by
  have hl : (∑ e ∈ L, ∑ k, (g e k : EReal) * (w k : EReal)) = ((∑ e ∈ L, ∑ k, g e k * w k : ℝ) : EReal) := by
    rw [SumSwap.coe_sum]
    refine Finset.sum_congr rfl fun e _ => ?_
    rw [SumSwap.coe_sum]
    exact Finset.sum_congr rfl fun k _ => (EReal.coe_mul _ _).symm
  have hk : ∀ k, Ideal.div (0 + ∑ e ∈ L, (g e k : EReal)) (d : EReal) * (w k : EReal)
      = (((∑ e ∈ L, g e k) / d * w k : ℝ) : EReal) := fun k => by
    rw [zero_add, ← SumSwap.coe_sum, div_coe_coe _ _ hd, ← EReal.coe_mul]
  rw [zero_add, hl, div_coe_coe _ _ hd]
  simp only [hk]
  rw [← SumSwap.coe_sum]
  congr 1
  rw [Finset.sum_comm, Finset.sum_div]
  refine Finset.sum_congr rfl fun k _ => ?_
  rw [← Finset.sum_mul, mul_div_right_comm]

/-! ## Images of reals -/

/-- An extended real that is the image of a real number. -/
def IsReal (v : EReal) : Prop := ∃ r : ℝ, v = (r : EReal)

theorem isReal_coe (r : ℝ) : IsReal (r : EReal) := ⟨r, rfl⟩
theorem isReal_zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert i s hi ih =>
    rw [Finset.sum_insert hi]
    exact (hf i (Finset.mem_insert_self i s)).add (ih fun j hj => hf j (Finset.mem_insert_of_mem hj))

theorem IsReal.div {a : EReal} (ha : IsReal a) (d : ℝ) (hd : d ≠ 0) : IsReal (Ideal.div a (d : EReal)) := by
  obtain ⟨x, rfl⟩ := ha; exact ⟨x / d, div_coe_coe x d hd⟩

end Cert.LibMeanProj

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.Algebra.lean ====
/-
  Two layers of mean aggregation over a graph, computed two ways, agree on real data.

  Nodes carry feature rows; every edge e has a source row src e (clamped into the table) and lands on the node its
  destination index names. The neighbour sum of a table at node i is 0 + ∑ over the edges landing on i of the table's
  source rows; c i is the real, nonzero neighbour count of node i (floored at one).

  One way scales the neighbour sum by the reciprocal 1 / c i before the first layer's products, adds the bias last, and
  for the second layer projects the hidden features FIRST (h · w), sums the projected rows over the neighbours, and
  scales by 1 / c i. The other way divides the neighbour sums by c i, adds the bias in the middle, and projects the
  averaged hidden features LAST.

  The hidden layers agree because x · (1 / c) = x / c for a nonzero real c and because addition on the extended reals is
  commutative and associative. The output layers agree because, for REAL hidden features and weights, averaging commutes
  with a linear projection: distributivity and an exchange of two finite sums, true on the reals and false at infinities,
  which is why every factor is shown to be the image of a real first.
-/
import proofs.«164449_j3186865734220_2_alg».proof.Proof.LibMeanProj
import proofs.«164449_j3186865734220_2_alg».proof.Proof.LibScatterAddRows
import proofs.«164449_j3186865734220_2_alg».proof.Proof.LibGatherRows
import Idealize.ShloMosaic.PureOps.Ideal.Laws
import Idealize.ShloMosaic.Lib.ValueIdx

noncomputable section

open scoped BigOperators

namespace Cert.Sage

open Idealize.ShloMosaic Idealize.ShloMosaic.ValueIdx
open Cert.LibScatterAddRows (landing rowDims)
open Cert.LibGatherRows (clampRow rowDims2)
open Cert.LibMeanProj (IsReal)

/-- A table with one row per node. -/
abbrev Tbl (D : ℕ) := (⟨2, ![100000, D]⟩ : Shape).Idx → EReal
/-- A weight matrix. -/
abbrev Mat (K N : ℕ) := (⟨2, ![K, N]⟩ : Shape).Idx → EReal
/-- One 32-bit index per edge, as a column. -/
abbrev EdgeCol := IVec ⟨2, ![1000000, 1]⟩ 32

theorem nodes_pos : 0 < 100000 := by norm_num

/-- The neighbour sum of a table at node `i`, column `k`. -/
def nbrSum {D : ℕ} (src dst : EdgeCol) (tbl : Tbl D) (i : Fin 100000) (k : Fin D) : EReal :=
  0 + ∑ e ∈ landing dst i.val, tbl (ix2 (clampRow 100000 nodes_pos (src (ix2 e (0 : Fin 1)))) k)

/-- The neighbour sums as a table. -/
def nbrTbl {D : ℕ} (src dst : EdgeCol) (tbl : Tbl D) : Tbl D := fun j => nbrSum src dst tbl (j 0) (j 1)

theorem nbrTbl_ix2 {D : ℕ} (src dst : EdgeCol) (tbl : Tbl D) (i : Fin 100000) (k : Fin D) :
    nbrTbl src dst tbl (ix2 i k) = nbrSum src dst tbl i k := rfl

/-- A row gather followed by an accumulating row scatter into zeros is the neighbour sum. -/
theorem scatter_gather_eq {D : ℕ} (wfS : ScatterDims.WF ⟨2, ![100000, D]⟩ ⟨2, ![1000000, 1]⟩ ⟨2, ![1000000, D]⟩ [1] [0] [0] 1)
    (wfG : GatherDims.WF ⟨2, ![100000, D]⟩ ⟨2, ![1000000, 1]⟩ ⟨2, ![1000000, D]⟩ [1] [0] [] [0] [] 1 ![1, D])
    (dS : ScatterDims ⟨2, ![100000, D]⟩ ⟨2, ![1000000, 1]⟩ ⟨2, ![1000000, D]⟩) (hS : dS = rowDims 100000 D 1000000 wfS)
    (dG : GatherDims ⟨2, ![100000, D]⟩ ⟨2, ![1000000, 1]⟩ ⟨2, ![1000000, D]⟩) (hG : dG = rowDims2 100000 D 1000000 wfG)
    (z : FVec Ideal ⟨2, ![100000, D]⟩ .f32) (hz : ∀ j, z j = 0) (src dst : EdgeCol) (tbl : FVec Ideal ⟨2, ![100000, D]⟩ .f32) :
    Host.scatterAdd dS z dst (Host.gather dG tbl src) = nbrTbl src dst tbl := by
  funext j
  obtain ⟨i, k, rfl⟩ : ∃ (i : Fin 100000) (k : Fin D), j = ix2 i k := ⟨j 0, j 1, eq_ix2 j⟩
  rw [Cert.LibScatterAddRows.scatterAdd_rows_apply wfS dst dS hS, hz, nbrTbl_ix2]
  subst hG
  simp only [Cert.LibGatherRows.gather_rows2_apply nodes_pos wfG]
  rfl

/-! ## The two computations, entry by entry -/

section Entries
variable (i : Fin 100000)

/-- A hidden feature, the reciprocal count applied to the neighbour sums, the bias added last. -/
def hiddenKAt (A X : Tbl 64) (s : (⟨2, ![100000, 1]⟩ : Shape).Idx → EReal) (Wl Wr : Mat 64 64)
    (b : (⟨2, ![1, 64]⟩ : Shape).Idx → EReal) (q : Fin 64) : EReal :=
  max ((∑ k : Fin 64, (A (ix2 i k) * s (ix2 i (0 : Fin 1))) * Wl (ix2 k q) + ∑ k : Fin 64, X (ix2 i k) * Wr (ix2 k q))
    + b (ix2 (0 : Fin 1) q)) 0

/-- A hidden feature row projected. -/
def projKAt (H : Tbl 64) (W : Mat 64 32) (q : Fin 32) : EReal := ∑ k : Fin 64, H (ix2 i k) * W (ix2 k q)

/-- An output entry, from the neighbour sums of the PROJECTED hidden features. -/
def outKAt (AP : Tbl 32) (s : (⟨2, ![100000, 1]⟩ : Shape).Idx → EReal) (H : Tbl 64) (W : Mat 64 32)
    (b : (⟨2, ![1, 32]⟩ : Shape).Idx → EReal) (q : Fin 32) : EReal :=
  ((∑ k : Fin 64, H (ix2 i k) * W (ix2 k q)) + AP (ix2 i q) * s (ix2 i (0 : Fin 1))) + b (ix2 (0 : Fin 1) q)

/-- A hidden feature, the neighbour sums divided by the count, the bias added in the middle. -/
def hiddenRAt (A X : Tbl 64) (c : Fin 100000 → EReal) (Wl Wr : Mat 64 64) (b : Fin 64 → EReal) (q : Fin 64) : EReal :=
  max (((∑ k : Fin 64, Ideal.div (A (ix2 i k)) (c i) * Wl (ix2 k q)) + b q) + ∑ k : Fin 64, X (ix2 i k) * Wr (ix2 k q)) 0

/-- An output entry, from the averaged neighbour sums of the hidden features, projected last. -/
def outRAt (A2 : Tbl 64) (c : Fin 100000 → EReal) (H : Tbl 64) (Wl Wr : Mat 64 32) (b : Fin 32 → EReal) (q : Fin 32) : EReal :=
  ((∑ k : Fin 64, Ideal.div (A2 (ix2 i k)) (c i) * Wl (ix2 k q)) + b q) + ∑ k : Fin 64, H (ix2 i k) * Wr (ix2 k q)

end Entries

/-! ## and as tables -/

def hiddenK (A X : Tbl 64) (s : (⟨2, ![100000, 1]⟩ : Shape).Idx → EReal) (Wl Wr : Mat 64 64)
    (b : (⟨2, ![1, 64]⟩ : Shape).Idx → EReal) : Tbl 64 := fun j => hiddenKAt (j 0) A X s Wl Wr b (j 1)
def projK (H : Tbl 64) (W : Mat 64 32) : Tbl 32 := fun j => projKAt (j 0) H W (j 1)
def outK (AP : Tbl 32) (s : (⟨2, ![100000, 1]⟩ : Shape).Idx → EReal) (H : Tbl 64) (W : Mat 64 32)
    (b : (⟨2, ![1, 32]⟩ : Shape).Idx → EReal) : Tbl 32 := fun j => outKAt (j 0) AP s H W b (j 1)
def hiddenR (A X : Tbl 64) (c : Fin 100000 → EReal) (Wl Wr : Mat 64 64) (b : Fin 64 → EReal) : Tbl 64 :=
  fun j => hiddenRAt (j 0) A X c Wl Wr b (j 1)
def outR (A2 : Tbl 64) (c : Fin 100000 → EReal) (H : Tbl 64) (Wl Wr : Mat 64 32) (b : Fin 32 → EReal) : Tbl 32 :=
  fun j => outRAt (j 0) A2 c H Wl Wr b (j 1)

theorem hiddenK_ix2 (A X : Tbl 64) (s : (⟨2, ![100000, 1]⟩ : Shape).Idx → EReal) (Wl Wr : Mat 64 64)
    (b : (⟨2, ![1, 64]⟩ : Shape).Idx → EReal) (i : Fin 100000) (q : Fin 64) :
    hiddenK A X s Wl Wr b (ix2 i q) = hiddenKAt i A X s Wl Wr b q := rfl
theorem projK_ix2 (H : Tbl 64) (W : Mat 64 32) (i : Fin 100000) (q : Fin 32) : projK H W (ix2 i q) = projKAt i H W q := rfl
theorem outK_ix2 (AP : Tbl 32) (s : (⟨2, ![100000, 1]⟩ : Shape).Idx → EReal) (H : Tbl 64) (W : Mat 64 32)
    (b : (⟨2, ![1, 32]⟩ : Shape).Idx → EReal) (i : Fin 100000) (q : Fin 32) :
    outK AP s H W b (ix2 i q) = outKAt i AP s H W b q := rfl
theorem hiddenR_ix2 (A X : Tbl 64) (c : Fin 100000 → EReal) (Wl Wr : Mat 64 64) (b : Fin 64 → EReal) (i : Fin 100000) (q : Fin 64) :
    hiddenR A X c Wl Wr b (ix2 i q) = hiddenRAt i A X c Wl Wr b q := rfl
theorem outR_ix2 (A2 : Tbl 64) (c : Fin 100000 → EReal) (H : Tbl 64) (Wl Wr : Mat 64 32) (b : Fin 32 → EReal) (i : Fin 100000)
    (q : Fin 32) : outR A2 c H Wl Wr b (ix2 i q) = outRAt i A2 c H Wl Wr b q := rfl

/-! ## They agree -/

/-- Scaling by the reciprocal of a nonzero real is dividing by it. -/
theorem mul_recip (x : EReal) (d : ℝ) (hd : d ≠ 0) : x * Ideal.div 1 (d : EReal) = Ideal.div x (d : EReal) := by
  rw [Ideal.div_coe hd, Ideal.div_coe hd, one_mul]

section Agree
variable (src dst : EdgeCol) (X : Tbl 64) (s : (⟨2, ![100000, 1]⟩ : Shape).Idx → EReal) (c : Fin 100000 → EReal)
  (W1l W1r : Mat 64 64) (b1 : (⟨2, ![1, 64]⟩ : Shape).Idx → EReal) (W2l W2r : Mat 64 32)
  (b2 : (⟨2, ![1, 32]⟩ : Shape).Idx → EReal)

/-- The hidden layers agree, whatever the data, when every count is a nonzero real and `s` its reciprocal. -/
theorem hidden_agree (A : Tbl 64) (hc : ∀ i, ∃ d : ℝ, d ≠ 0 ∧ c i = (d : EReal))
    (hs : ∀ i, s (ix2 i (0 : Fin 1)) = Ideal.div 1 (c i)) :
    hiddenK A X s W1l W1r b1 = hiddenR A X c W1l W1r (fun q => b1 (ix2 (0 : Fin 1) q)) := by
  funext j
  obtain ⟨i, q, rfl⟩ : ∃ (i : Fin 100000) (q : Fin 64), j = ix2 i q := ⟨j 0, j 1, eq_ix2 j⟩
  obtain ⟨d, hd, hcd⟩ := hc i
  rw [hiddenK_ix2, hiddenR_ix2]
  unfold hiddenKAt hiddenRAt
  rw [hs, hcd]
  simp only [mul_recip _ d hd]
  rw [add_right_comm]

/-- With real data every hidden feature is the image of a real. -/
theorem hidden_real (A : Tbl 64) (hA : ∀ j, IsReal (A j)) (hX : ∀ j, IsReal (X j)) (hc : ∀ i, ∃ d : ℝ, d ≠ 0 ∧ c i = (d : EReal))
    (hl : ∀ j, IsReal (W1l j)) (hr : ∀ j, IsReal (W1r j)) (b : Fin 64 → EReal) (hb : ∀ q, IsReal (b q)) (j) :
    IsReal (hiddenR A X c W1l W1r b j) := by
  obtain ⟨i, q, rfl⟩ : ∃ (i : Fin 100000) (q : Fin 64), j = ix2 i q := ⟨j 0, j 1, eq_ix2 j⟩
  obtain ⟨d, hd, hcd⟩ := hc i
  rw [hiddenR_ix2]
  unfold hiddenRAt
  rw [hcd]
  exact IsReal.max (IsReal.add (IsReal.add (IsReal.sum _ _ fun k _ => ((hA _).div d hd).mul (hl _)) (hb _))
    (IsReal.sum _ _ fun k _ => (hX _).mul (hr _))) Cert.LibMeanProj.isReal_zero

/-- A neighbour sum of real rows is real. -/
theorem nbrTbl_real {D : ℕ} (tbl : Tbl D) (h : ∀ j, IsReal (tbl j)) (j) : IsReal (nbrTbl src dst tbl j) :=
  IsReal.add Cert.LibMeanProj.isReal_zero (IsReal.sum _ _ fun e _ => h _)

/-- The output layers agree on real hidden features and real weights. -/
theorem out_agree (H : Tbl 64) (hH : ∀ j, IsReal (H j)) (hc : ∀ i, ∃ d : ℝ, d ≠ 0 ∧ c i = (d : EReal))
    (hs : ∀ i, s (ix2 i (0 : Fin 1)) = Ideal.div 1 (c i)) (hl : ∀ j, IsReal (W2l j)) :
    outK (nbrTbl src dst (projK H W2l)) s H W2r b2
      = outR (nbrTbl src dst H) c H W2l W2r (fun q => b2 (ix2 (0 : Fin 1) q)) := by
  funext j
  obtain ⟨i, q, rfl⟩ : ∃ (i : Fin 100000) (q : Fin 32), j = ix2 i q := ⟨j 0, j 1, eq_ix2 j⟩
  obtain ⟨d, hd, hcd⟩ := hc i
  choose h hh using hH
  choose w hw using hl
  rw [outK_ix2, outR_ix2]
  unfold outKAt outRAt
  rw [hs, hcd, mul_recip _ d hd]
  have key : Ideal.div (nbrTbl src dst (projK H W2l) (ix2 i q)) (d : EReal)
      = ∑ k : Fin 64, Ideal.div (nbrTbl src dst H (ix2 i k)) (d : EReal) * W2l (ix2 k q) := by
    simp only [nbrTbl_ix2]
    unfold nbrSum
    simp only [projK_ix2]
    unfold projKAt
    simp only [hh, hw]
    exact Cert.LibMeanProj.mean_proj (landing dst i.val)
      (fun e k => h (ix2 (clampRow 100000 nodes_pos (src (ix2 e (0 : Fin 1)))) k)) (fun k => w (ix2 k q)) d hd
  rw [key, add_comm (∑ k : Fin 64, H (ix2 i k) * W2r (ix2 k q)), add_right_comm]

end Agree

end Cert.Sage

end
-- ==== Proof.BlockRows.lean ====
/-
  A block of rows of the inputs gives the same block of rows of the results.

  Every result row of the two kernel bodies depends on the SAME row of the row-indexed inputs (and on the whole weight
  matrices and bias rows). So when a body is run on rows off, off + 1, … of the tables, what it stores at row p is row
  off + p of the table-level computation.
-/
import proofs.«164449_j3186865734220_2_alg».proof.Proof.Payload
import proofs.«164449_j3186865734220_2_alg».proof.Proof.Algebra

noncomputable section

open scoped BigOperators

namespace Cert.Sage.Blocks

open Cert.KernelIdeal Cert.KernelIdeal.Gen Cert.Sage
open Idealize.ShloMosaic Idealize.ShloMosaic.ValueIdx

/-- `xb` is rows `off, off + 1, …` of the table `x`. -/
def RowsOf {m D : ℕ} (xb : (⟨2, ![m, D]⟩ : Shape).Idx → EReal) (x : (⟨2, ![100000, D]⟩ : Shape).Idx → EReal) (off : ℕ) : Prop :=
  ∀ (p : Fin m) (P : Fin 100000), P.val = off + p.val → ∀ k : Fin D, xb (ix2 p k) = x (ix2 P k)

section First
variable (A X : Tbl 64) (I : (⟨2, ![100000, 1]⟩ : Shape).Idx → EReal) (Wl Wr : Mat 64 64)
  (B : (⟨2, ![1, 64]⟩ : Shape).Idx → EReal) (off : ℕ)
  (a x : FVec Ideal S2000x64 .f32) (s : FVec Ideal S2000x1 .f32) (wl wr : FVec Ideal S64x64 .bf16) (b : FVec Ideal S1x64 .f32)
  (ha : RowsOf a A off) (hx : RowsOf x X off) (hs : RowsOf s I off) (hwl : wl = Wl) (hwr : wr = Wr) (hb : b = B)
include ha hx hs hwl hwr hb

/-- The hidden features of a block of rows. -/
theorem hidden_rows (p : Fin 2000) (P : Fin 100000) (hP : P.val = off + p.val) (q : Fin 64) :
    k0_pay1 (F := Ideal) a s x wl wr b (ix2 p q) = hiddenK A X I Wl Wr B (ix2 P q) := by
  subst hwl hwr hb
  rw [Payload.hidden_apply, hiddenK_ix2]
  unfold hiddenKAt
  simp only [ha p P hP, hx p P hP, hs p P hP]

/-- The same at an index given by its coordinates. -/
theorem hidden_block (y : S2000x64.Idx) (Y : S100000x64.Idx) (h0 : (Y 0).val = off + (y 0).val) (h1 : (Y 1).val = (y 1).val) :
    k0_pay1 (F := Ideal) a s x wl wr b y = hiddenK A X I Wl Wr B Y := by
  obtain ⟨p, q, rfl⟩ : ∃ (p : Fin 2000) (q : Fin 64), y = ix2 p q := ⟨y 0, y 1, eq_ix2 y⟩
  obtain ⟨P, Q, rfl⟩ : ∃ (P : Fin 100000) (Q : Fin 64), Y = ix2 P Q := ⟨Y 0, Y 1, eq_ix2 Y⟩
  obtain rfl : Q = q := Fin.ext h1
  exact hidden_rows A X I Wl Wr B off a x s wl wr b ha hx hs hwl hwr hb p P h0 Q

/-- The projected hidden features of a block of rows. -/
theorem proj_block (W : Mat 64 32) (w : FVec Ideal S64x32 .bf16) (hw : w = W) (y : S2000x32.Idx) (Y : S100000x32.Idx)
    (h0 : (Y 0).val = off + (y 0).val) (h1 : (Y 1).val = (y 1).val) :
    k0_pay2 (F := Ideal) a s x wl wr b w y = projK (hiddenK A X I Wl Wr B) W Y := by
  obtain ⟨p, q, rfl⟩ : ∃ (p : Fin 2000) (q : Fin 32), y = ix2 p q := ⟨y 0, y 1, eq_ix2 y⟩
  obtain ⟨P, Q, rfl⟩ : ∃ (P : Fin 100000) (Q : Fin 32), Y = ix2 P Q := ⟨Y 0, Y 1, eq_ix2 Y⟩
  obtain rfl : Q = q := Fin.ext h1
  subst hw
  rw [Payload.proj_apply, projK_ix2]
  unfold projKAt
  exact Finset.sum_congr rfl fun k _ => by
    rw [hidden_rows A X I Wl Wr B off a x s wl wr b ha hx hs hwl hwr hb p P h0 k]

end First

/-- The output of a block of rows. -/
theorem out_block (AP : Tbl 32) (I : (⟨2, ![100000, 1]⟩ : Shape).Idx → EReal) (H : Tbl 64) (W : Mat 64 32)
    (B : (⟨2, ![1, 32]⟩ : Shape).Idx → EReal) (off : ℕ)
    (a : FVec Ideal S5000x32 .f32) (s : FVec Ideal S5000x1 .f32) (h : FVec Ideal S5000x64 .f32) (w : FVec Ideal S64x32 .bf16)
    (b : FVec Ideal S1x32 .f32) (ha : RowsOf a AP off) (hs : RowsOf s I off) (hh : RowsOf h H off) (hw : w = W) (hb : b = B)
    (y : S5000x32.Idx) (Y : S100000x32.Idx) (h0 : (Y 0).val = off + (y 0).val) (h1 : (Y 1).val = (y 1).val) :
    k1_pay1 (F := Ideal) a s h w b y = outK AP I H W B Y := by
  obtain ⟨p, q, rfl⟩ : ∃ (p : Fin 5000) (q : Fin 32), y = ix2 p q := ⟨y 0, y 1, eq_ix2 y⟩
  obtain ⟨P, Q, rfl⟩ : ∃ (P : Fin 100000) (Q : Fin 32), Y = ix2 P Q := ⟨Y 0, Y 1, eq_ix2 Y⟩
  obtain rfl : Q = q := Fin.ext h1
  subst hw hb
  rw [Payload.out_apply, outK_ix2]
  unfold outKAt
  simp only [ha p P h0, hs p P h0, hh p P h0]

end Cert.Sage.Blocks

end
-- ==== Proof.Region0.lean ====
/-
  What the first launch leaves in its two result arrays, as functions of the arrays it finds.

  The launch runs the body once per block of 2000 nodes. Block t of the aggregated features, of the node features and of
  the reciprocal-count column is rows 2000 t … 2000 t + 1999 of its array; the weight matrices and the bias row are read
  whole at every point. What point t writes back is therefore block t of the table-level hidden features (first result)
  and of their projection (second result), and the fifty blocks tile each result array.
-/
import proofs.«164449_j3186865734220_2_alg».proof.Proof.Gen.KernelIdeal.Frame
import proofs.«164449_j3186865734220_2_alg».proof.Proof.BlockRows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.Sage Cert.Sage.Blocks
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: a row-blocked window's block index is the point's number on the row
    axis and zero on the column axis; a whole-array window's is zero on both. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Window 0's block at point `t`, read at an index, is its array read at row `2000 t` + the row, same column. -/
theorem blk0_0 (c : Dev nD) (t : Fin cfg0.N) (y : S2000x64.Idx) (Y : S100000x64.Idx) (h0 : (Y 0).val = t.val * 2000 + (y 0).val)
    (h1 : (Y 1).val = (y 1).val) :
    (iblk0 V c 0 t : S2000x64.Idx → EReal) y = (V c main_v22 : S100000x64.Idx → EReal) Y := by
  have e := idx_facts0 t
  unfold iblk0
  rw [View.read_apply]
  show (V c main_v22 : S100000x64.Idx → EReal) _ = (V c main_v22 : S100000x64.Idx → EReal) _
  refine congrArg (V c main_v22 : S100000x64.Idx → EReal) (funext fun a => Fin.ext ?_)
  match a with
  | ⟨0, _⟩ => show win0_0.index t (0 : Fin 2) * 2000 + 1 * (y 0).val = (Y 0).val; rw [h0]; omega
  | ⟨1, _⟩ => show win0_0.index t (1 : Fin 2) * 64 + 1 * (y 1).val = (Y 1).val; rw [h1]; omega
theorem rows0_0 (c : Dev nD) (t : Fin cfg0.N) :
    RowsOf (iblk0 V c 0 t : S2000x64.Idx → EReal) (V c main_v22 : S100000x64.Idx → EReal) (t.val * 2000) :=
  fun p P hP k => blk0_0 V c t (ix2 p k) (ix2 P k) hP rfl

/-- Window 1's block at point `t`, read at an index, is its array read at row `2000 t` + the row, same column. -/
theorem blk0_1 (c : Dev nD) (t : Fin cfg0.N) (y : S2000x64.Idx) (Y : S100000x64.Idx) (h0 : (Y 0).val = t.val * 2000 + (y 0).val)
    (h1 : (Y 1).val = (y 1).val) :
    (iblk0 V c 1 t : S2000x64.Idx → EReal) y = (V c main_arg0 : S100000x64.Idx → EReal) Y := by
  have e := idx_facts0 t
  unfold iblk0
  rw [View.read_apply]
  show (V c main_arg0 : S100000x64.Idx → EReal) _ = (V c main_arg0 : S100000x64.Idx → EReal) _
  refine congrArg (V c main_arg0 : S100000x64.Idx → EReal) (funext fun a => Fin.ext ?_)
  match a with
  | ⟨0, _⟩ => show win0_1.index t (0 : Fin 2) * 2000 + 1 * (y 0).val = (Y 0).val; rw [h0]; omega
  | ⟨1, _⟩ => show win0_1.index t (1 : Fin 2) * 64 + 1 * (y 1).val = (Y 1).val; rw [h1]; omega
theorem rows0_1 (c : Dev nD) (t : Fin cfg0.N) :
    RowsOf (iblk0 V c 1 t : S2000x64.Idx → EReal) (V c main_arg0 : S100000x64.Idx → EReal) (t.val * 2000) :=
  fun p P hP k => blk0_1 V c t (ix2 p k) (ix2 P k) hP rfl

/-- Window 2's block at point `t`, read at an index, is its array read at row `2000 t` + the row, same column. -/
theorem blk0_2 (c : Dev nD) (t : Fin cfg0.N) (y : S2000x1.Idx) (Y : S100000x1.Idx) (h0 : (Y 0).val = t.val * 2000 + (y 0).val)
    (h1 : (Y 1).val = (y 1).val) :
    (iblk0 V c 2 t : S2000x1.Idx → EReal) y = (V c main_v12 : S100000x1.Idx → EReal) Y := by
  have e := idx_facts0 t
  unfold iblk0
  rw [View.read_apply]
  show (V c main_v12 : S100000x1.Idx → EReal) _ = (V c main_v12 : S100000x1.Idx → EReal) _
  refine congrArg (V c main_v12 : S100000x1.Idx → EReal) (funext fun a => Fin.ext ?_)
  match a with
  | ⟨0, _⟩ => show win0_2.index t (0 : Fin 2) * 2000 + 1 * (y 0).val = (Y 0).val; rw [h0]; omega
  | ⟨1, _⟩ => show win0_2.index t (1 : Fin 2) * 1 + 1 * (y 1).val = (Y 1).val; rw [h1]; omega
theorem rows0_2 (c : Dev nD) (t : Fin cfg0.N) :
    RowsOf (iblk0 V c 2 t : S2000x1.Idx → EReal) (V c main_v12 : S100000x1.Idx → EReal) (t.val * 2000) :=
  fun p P hP k => blk0_2 V c t (ix2 p k) (ix2 P k) hP rfl

/-- Window 3's block at point `t`, read at an index, is its array read at the same index (the block is the whole array). -/
theorem blk0_3 (c : Dev nD) (t : Fin cfg0.N) (y : S64x64.Idx) (Y : S64x64.Idx) (h0 : (Y 0).val = (y 0).val)
    (h1 : (Y 1).val = (y 1).val) :
    (iblk0 V c 3 t : S64x64.Idx → EReal) y = (V c main_v24 : S64x64.Idx → EReal) Y := by
  have e := idx_facts0 t
  unfold iblk0
  rw [View.read_apply]
  show (V c main_v24 : S64x64.Idx → EReal) _ = (V c main_v24 : S64x64.Idx → EReal) _
  refine congrArg (V c main_v24 : S64x64.Idx → EReal) (funext fun a => Fin.ext ?_)
  match a with
  | ⟨0, _⟩ => show win0_3.index t (0 : Fin 2) * 64 + 1 * (y 0).val = (Y 0).val; rw [h0]; omega
  | ⟨1, _⟩ => show win0_3.index t (1 : Fin 2) * 64 + 1 * (y 1).val = (Y 1).val; rw [h1]; omega
theorem whole0_3 (c : Dev nD) (t : Fin cfg0.N) : (iblk0 V c 3 t : S64x64.Idx → EReal) = (V c main_v24 : S64x64.Idx → EReal) :=
  funext fun y => blk0_3 V c t y y rfl rfl

/-- Window 4's block at point `t`, read at an index, is its array read at the same index (the block is the whole array). -/
theorem blk0_4 (c : Dev nD) (t : Fin cfg0.N) (y : S64x64.Idx) (Y : S64x64.Idx) (h0 : (Y 0).val = (y 0).val)
    (h1 : (Y 1).val = (y 1).val) :
    (iblk0 V c 4 t : S64x64.Idx → EReal) y = (V c main_v26 : S64x64.Idx → EReal) Y := by
  have e := idx_facts0 t
  unfold iblk0
  rw [View.read_apply]
  show (V c main_v26 : S64x64.Idx → EReal) _ = (V c main_v26 : S64x64.Idx → EReal) _
  refine congrArg (V c main_v26 : S64x64.Idx → EReal) (funext fun a => Fin.ext ?_)
  match a with
  | ⟨0, _⟩ => show win0_4.index t (0 : Fin 2) * 64 + 1 * (y 0).val = (Y 0).val; rw [h0]; omega
  | ⟨1, _⟩ => show win0_4.index t (1 : Fin 2) * 64 + 1 * (y 1).val = (Y 1).val; rw [h1]; omega
theorem whole0_4 (c : Dev nD) (t : Fin cfg0.N) : (iblk0 V c 4 t : S64x64.Idx → EReal) = (V c main_v26 : S64x64.Idx → EReal) :=
  funext fun y => blk0_4 V c t y y rfl rfl

/-- Window 5's block at point `t`, read at an index, is its array read at the same index (the block is the whole array). -/
theorem blk0_5 (c : Dev nD) (t : Fin cfg0.N) (y : S1x64.Idx) (Y : S1x64.Idx) (h0 : (Y 0).val = (y 0).val)
    (h1 : (Y 1).val = (y 1).val) :
    (iblk0 V c 5 t : S1x64.Idx → EReal) y = (V c main_v29 : S1x64.Idx → EReal) Y := by
  have e := idx_facts0 t
  unfold iblk0
  rw [View.read_apply]
  show (V c main_v29 : S1x64.Idx → EReal) _ = (V c main_v29 : S1x64.Idx → EReal) _
  refine congrArg (V c main_v29 : S1x64.Idx → EReal) (funext fun a => Fin.ext ?_)
  match a with
  | ⟨0, _⟩ => show win0_5.index t (0 : Fin 2) * 1 + 1 * (y 0).val = (Y 0).val; rw [h0]; omega
  | ⟨1, _⟩ => show win0_5.index t (1 : Fin 2) * 64 + 1 * (y 1).val = (Y 1).val; rw [h1]; omega
theorem whole0_5 (c : Dev nD) (t : Fin cfg0.N) : (iblk0 V c 5 t : S1x64.Idx → EReal) = (V c main_v29 : S1x64.Idx → EReal) :=
  funext fun y => blk0_5 V c t y y rfl rfl

/-- Window 6's block at point `t`, read at an index, is its array read at the same index (the block is the whole array). -/
theorem blk0_6 (c : Dev nD) (t : Fin cfg0.N) (y : S64x32.Idx) (Y : S64x32.Idx) (h0 : (Y 0).val = (y 0).val)
    (h1 : (Y 1).val = (y 1).val) :
    (iblk0 V c 6 t : S64x32.Idx → EReal) y = (V c main_v28 : S64x32.Idx → EReal) Y := by
  have e := idx_facts0 t
  unfold iblk0
  rw [View.read_apply]
  show (V c main_v28 : S64x32.Idx → EReal) _ = (V c main_v28 : S64x32.Idx → EReal) _
  refine congrArg (V c main_v28 : S64x32.Idx → EReal) (funext fun a => Fin.ext ?_)
  match a with
  | ⟨0, _⟩ => show win0_6.index t (0 : Fin 2) * 64 + 1 * (y 0).val = (Y 0).val; rw [h0]; omega
  | ⟨1, _⟩ => show win0_6.index t (1 : Fin 2) * 32 + 1 * (y 1).val = (Y 1).val; rw [h1]; omega
theorem whole0_6 (c : Dev nD) (t : Fin cfg0.N) : (iblk0 V c 6 t : S64x32.Idx → EReal) = (V c main_v28 : S64x32.Idx → EReal) :=
  funext fun y => blk0_6 V c t y y rfl rfl

/-- The table-level hidden features of the arrays the launch finds. -/
abbrev hiddenOf (c : Dev nD) : S100000x64.Idx → EReal :=
  hiddenK (V c main_v22) (V c main_arg0) (V c main_v12) (V c main_v24) (V c main_v26) (V c main_v29)

/-- WHAT POINT `t` WRITES BACK to the first result is block `t` of the hidden features. -/
theorem flushed_hidden (c : Dev nD) (t : Fin cfg0.N) :
    (dat0 V c).flushed 7 t = ((cfg0.win 7).blk t).view.read (Elt Ideal) (hiddenOf V c) := by
  show (cfg0.win 7).cut (grid0.coords t) ((dat0 V c).after 7 t) = _
  rw [after0_7]
  unfold out0_7
  rw [View.canon_unit_zero hz]
  simp only [View.ld_unit_zero (S := S2000x64) hz, View.ld_unit_zero (S := S2000x1) hz, View.ld_unit_zero (S := S64x64) hz,
    View.ld_unit_zero (S := S1x64) hz]
  have e := idx_facts0 t
  funext j
  rw [View.read_apply]
  refine hidden_block (V c main_v22) (V c main_arg0) (V c main_v12) (V c main_v24) (V c main_v26) (V c main_v29) (t.val * 2000)
    (iblk0 V c 0 t) (iblk0 V c 1 t) (iblk0 V c 2 t) (iblk0 V c 3 t) (iblk0 V c 4 t) (iblk0 V c 5 t)
    (rows0_0 V c t) (rows0_1 V c t) (rows0_2 V c t) (whole0_3 V c t) (whole0_4 V c t) (whole0_5 V c t) j _ ?_ ?_
  · show win0_7.index t (0 : Fin 2) * 2000 + 1 * (j 0).val = t.val * 2000 + (j 0).val
    omega
  · show win0_7.index t (1 : Fin 2) * 64 + 1 * (j 1).val = (j 1).val
    omega

/-- and to the second result, block `t` of their projection. -/
theorem flushed_proj (c : Dev nD) (t : Fin cfg0.N) :
    (dat0 V c).flushed 8 t = ((cfg0.win 8).blk t).view.read (Elt Ideal) (projK (hiddenOf V c) (V c main_v28)) := by
  show (cfg0.win 8).cut (grid0.coords t) ((dat0 V c).after 8 t) = _
  rw [after0_8]
  unfold out0_8
  rw [View.canon_unit_zero hz]
  simp only [View.ld_unit_zero (S := S2000x64) hz, View.ld_unit_zero (S := S2000x1) hz, View.ld_unit_zero (S := S64x64) hz,
    View.ld_unit_zero (S := S1x64) hz, View.ld_unit_zero (S := S64x32) hz]
  have e := idx_facts0 t
  funext j
  rw [View.read_apply]
  refine proj_block (V c main_v22) (V c main_arg0) (V c main_v12) (V c main_v24) (V c main_v26) (V c main_v29) (t.val * 2000)
    (iblk0 V c 0 t) (iblk0 V c 1 t) (iblk0 V c 2 t) (iblk0 V c 3 t) (iblk0 V c 4 t) (iblk0 V c 5 t)
    (rows0_0 V c t) (rows0_1 V c t) (rows0_2 V c t) (whole0_3 V c t) (whole0_4 V c t) (whole0_5 V c t)
    (V c main_v28) (iblk0 V c 6 t) (whole0_6 V c t) j _ ?_ ?_
  · show win0_8.index t (0 : Fin 2) * 2000 + 1 * (j 0).val = t.val * 2000 + (j 0).val
    omega
  · show win0_8.index t (1 : Fin 2) * 32 + 1 * (j 1).val = (j 1).val
    omega

/-- An index of the array is in point `t`'s block of window 7 iff each coordinate is in the block's range. -/
theorem mem_blk0_7 (t : Fin cfg0.N) (i : S100000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v30_0).slice (win0_7.rect t)).set ↔ _
  rw [View.set_slice_whole, Rect.mem_set_unit]
  exact Iff.rfl

/-- Every index of window 7's array is in the block of the point its row falls in. -/
theorem cover0_7 (i : S100000x64.Idx) :
    ∃ t : Fin cfg0.N, (cfg0.win 7).flush t = true ∧ i ∈ ((cfg0.win 7).blk t).view.set := by
  have hN : cfg0.N = 50 := N_0
  have hi0 : (i 0).val < 100000 := (i 0).isLt
  have hi1 : (i 1).val < 64 := (i 1).isLt
  obtain ⟨t, ht⟩ : ∃ t : Fin cfg0.N, t.val = (i 0).val / 2000 := ⟨⟨(i 0).val / 2000, by rw [hN]; omega⟩, rfl⟩
  have e := idx_facts0 t
  refine ⟨t, flush0_7 t, ?_⟩
  rw [mem_blk0_7]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 64 ≤ (i 1).val ∧ (i 1).val < win0_7.index t (1 : Fin 2) * 64 + 64
    omega

/-- An index of the array is in point `t`'s block of window 8 iff each coordinate is in the block's range. -/
theorem mem_blk0_8 (t : Fin cfg0.N) (i : S100000x32.Idx) :
    i ∈ ((cfg0.win 8).blk t).view.set ↔ ∀ a : Fin 2, win0_8.index t a * S2000x32.size a ≤ (i a).val
      ∧ (i a).val < win0_8.index t a * S2000x32.size a + S2000x32.size a := by
  show i ∈ ((View.whole main_v30_1).slice (win0_8.rect t)).set ↔ _
  rw [View.set_slice_whole, Rect.mem_set_unit]
  exact Iff.rfl

/-- Every index of window 8's array is in the block of the point its row falls in. -/
theorem cover0_8 (i : S100000x32.Idx) :
    ∃ t : Fin cfg0.N, (cfg0.win 8).flush t = true ∧ i ∈ ((cfg0.win 8).blk t).view.set := by
  have hN : cfg0.N = 50 := N_0
  have hi0 : (i 0).val < 100000 := (i 0).isLt
  have hi1 : (i 1).val < 32 := (i 1).isLt
  obtain ⟨t, ht⟩ : ∃ t : Fin cfg0.N, t.val = (i 0).val / 2000 := ⟨⟨(i 0).val / 2000, by rw [hN]; omega⟩, rfl⟩
  have e := idx_facts0 t
  refine ⟨t, flush0_8 t, ?_⟩
  rw [mem_blk0_8]
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 32 ≤ (i 1).val ∧ (i 1).val < win0_8.index t (1 : Fin 2) * 32 + 32
    omega

/-- THE FIRST RESULT ARRAY after the launch: the hidden features of the arrays it found. -/
theorem arr_hidden (c : Dev nD) : (dat0 V c).arrAt 7 cfg0.N = hiddenOf V c :=
  (dat0 V c).arrAt_eq_of_cover 7 (hiddenOf V c) (fun t _ => flushed_hidden V c t) (cover0_7 )

/-- THE SECOND RESULT ARRAY: their projection. -/
theorem arr_proj (c : Dev nD) : (dat0 V c).arrAt 8 cfg0.N = projK (hiddenOf V c) (V c main_v28) :=
  (dat0 V c).arrAt_eq_of_cover 8 (projK (hiddenOf V c) (V c main_v28)) (fun t _ => flushed_proj V c t) (cover0_8 )

end Cert.KernelIdeal.Region0

end
-- ==== Proof.Region1.lean ====
/-
  What the second launch leaves in its result array, as a function of the arrays it finds.

  The launch runs the body once per block of 5000 nodes. Block t of the aggregated projected features, of the
  reciprocal-count column and of the hidden features is rows 5000 t … 5000 t + 4999 of its array; the weight matrix and the
  bias row are read whole at every point. What point t writes back is block t of the table-level output, and the twenty
  blocks tile the result array.
-/
import proofs.«164449_j3186865734220_2_alg».proof.Proof.Gen.KernelIdeal.Frame
import proofs.«164449_j3186865734220_2_alg».proof.Proof.BlockRows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.Sage Cert.Sage.Blocks
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: a row-blocked window's block index is the point's number on the row
    axis and zero on the column axis; a whole-array window's is zero on both. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t`, read at an index, is its array read at row `5000 t` + the row, same column. -/
theorem blk1_0 (c : Dev nD) (t : Fin cfg1.N) (y : S5000x32.Idx) (Y : S100000x32.Idx) (h0 : (Y 0).val = t.val * 5000 + (y 0).val)
    (h1 : (Y 1).val = (y 1).val) :
    (iblk1 V c 0 t : S5000x32.Idx → EReal) y = (V c main_v40 : S100000x32.Idx → EReal) Y := by
  have e := idx_facts1 t
  unfold iblk1
  rw [View.read_apply]
  show (V c main_v40 : S100000x32.Idx → EReal) _ = (V c main_v40 : S100000x32.Idx → EReal) _
  refine congrArg (V c main_v40 : S100000x32.Idx → EReal) (funext fun a => Fin.ext ?_)
  match a with
  | ⟨0, _⟩ => show win1_0.index t (0 : Fin 2) * 5000 + 1 * (y 0).val = (Y 0).val; rw [h0]; omega
  | ⟨1, _⟩ => show win1_0.index t (1 : Fin 2) * 32 + 1 * (y 1).val = (Y 1).val; rw [h1]; omega
theorem rows1_0 (c : Dev nD) (t : Fin cfg1.N) :
    RowsOf (iblk1 V c 0 t : S5000x32.Idx → EReal) (V c main_v40 : S100000x32.Idx → EReal) (t.val * 5000) :=
  fun p P hP k => blk1_0 V c t (ix2 p k) (ix2 P k) hP rfl

/-- Window 1's block at point `t`, read at an index, is its array read at row `5000 t` + the row, same column. -/
theorem blk1_1 (c : Dev nD) (t : Fin cfg1.N) (y : S5000x1.Idx) (Y : S100000x1.Idx) (h0 : (Y 0).val = t.val * 5000 + (y 0).val)
    (h1 : (Y 1).val = (y 1).val) :
    (iblk1 V c 1 t : S5000x1.Idx → EReal) y = (V c main_v12 : S100000x1.Idx → EReal) Y := by
  have e := idx_facts1 t
  unfold iblk1
  rw [View.read_apply]
  show (V c main_v12 : S100000x1.Idx → EReal) _ = (V c main_v12 : S100000x1.Idx → EReal) _
  refine congrArg (V c main_v12 : S100000x1.Idx → EReal) (funext fun a => Fin.ext ?_)
  match a with
  | ⟨0, _⟩ => show win1_1.index t (0 : Fin 2) * 5000 + 1 * (y 0).val = (Y 0).val; rw [h0]; omega
  | ⟨1, _⟩ => show win1_1.index t (1 : Fin 2) * 1 + 1 * (y 1).val = (Y 1).val; rw [h1]; omega
theorem rows1_1 (c : Dev nD) (t : Fin cfg1.N) :
    RowsOf (iblk1 V c 1 t : S5000x1.Idx → EReal) (V c main_v12 : S100000x1.Idx → EReal) (t.val * 5000) :=
  fun p P hP k => blk1_1 V c t (ix2 p k) (ix2 P k) hP rfl

/-- Window 2's block at point `t`, read at an index, is its array read at row `5000 t` + the row, same column. -/
theorem blk1_2 (c : Dev nD) (t : Fin cfg1.N) (y : S5000x64.Idx) (Y : S100000x64.Idx) (h0 : (Y 0).val = t.val * 5000 + (y 0).val)
    (h1 : (Y 1).val = (y 1).val) :
    (iblk1 V c 2 t : S5000x64.Idx → EReal) y = (V c main_v30_0 : S100000x64.Idx → EReal) Y := by
  have e := idx_facts1 t
  unfold iblk1
  rw [View.read_apply]
  show (V c main_v30_0 : S100000x64.Idx → EReal) _ = (V c main_v30_0 : S100000x64.Idx → EReal) _
  refine congrArg (V c main_v30_0 : S100000x64.Idx → EReal) (funext fun a => Fin.ext ?_)
  match a with
  | ⟨0, _⟩ => show win1_2.index t (0 : Fin 2) * 5000 + 1 * (y 0).val = (Y 0).val; rw [h0]; omega
  | ⟨1, _⟩ => show win1_2.index t (1 : Fin 2) * 64 + 1 * (y 1).val = (Y 1).val; rw [h1]; omega
theorem rows1_2 (c : Dev nD) (t : Fin cfg1.N) :
    RowsOf (iblk1 V c 2 t : S5000x64.Idx → EReal) (V c main_v30_0 : S100000x64.Idx → EReal) (t.val * 5000) :=
  fun p P hP k => blk1_2 V c t (ix2 p k) (ix2 P k) hP rfl

/-- Window 3's block at point `t`, read at an index, is its array read at the same index (the block is the whole array). -/
theorem blk1_3 (c : Dev nD) (t : Fin cfg1.N) (y : S64x32.Idx) (Y : S64x32.Idx) (h0 : (Y 0).val = (y 0).val)
    (h1 : (Y 1).val = (y 1).val) :
    (iblk1 V c 3 t : S64x32.Idx → EReal) y = (V c main_v42 : S64x32.Idx → EReal) Y := by
  have e := idx_facts1 t
  unfold iblk1
  rw [View.read_apply]
  show (V c main_v42 : S64x32.Idx → EReal) _ = (V c main_v42 : S64x32.Idx → EReal) _
  refine congrArg (V c main_v42 : S64x32.Idx → EReal) (funext fun a => Fin.ext ?_)
  match a with
  | ⟨0, _⟩ => show win1_3.index t (0 : Fin 2) * 64 + 1 * (y 0).val = (Y 0).val; rw [h0]; omega
  | ⟨1, _⟩ => show win1_3.index t (1 : Fin 2) * 32 + 1 * (y 1).val = (Y 1).val; rw [h1]; omega
theorem whole1_3 (c : Dev nD) (t : Fin cfg1.N) : (iblk1 V c 3 t : S64x32.Idx → EReal) = (V c main_v42 : S64x32.Idx → EReal) :=
  funext fun y => blk1_3 V c t y y rfl rfl

/-- Window 4's block at point `t`, read at an index, is its array read at the same index (the block is the whole array). -/
theorem blk1_4 (c : Dev nD) (t : Fin cfg1.N) (y : S1x32.Idx) (Y : S1x32.Idx) (h0 : (Y 0).val = (y 0).val)
    (h1 : (Y 1).val = (y 1).val) :
    (iblk1 V c 4 t : S1x32.Idx → EReal) y = (V c main_v43 : S1x32.Idx → EReal) Y := by
  have e := idx_facts1 t
  unfold iblk1
  rw [View.read_apply]
  show (V c main_v43 : S1x32.Idx → EReal) _ = (V c main_v43 : S1x32.Idx → EReal) _
  refine congrArg (V c main_v43 : S1x32.Idx → EReal) (funext fun a => Fin.ext ?_)
  match a with
  | ⟨0, _⟩ => show win1_4.index t (0 : Fin 2) * 1 + 1 * (y 0).val = (Y 0).val; rw [h0]; omega
  | ⟨1, _⟩ => show win1_4.index t (1 : Fin 2) * 32 + 1 * (y 1).val = (Y 1).val; rw [h1]; omega
theorem whole1_4 (c : Dev nD) (t : Fin cfg1.N) : (iblk1 V c 4 t : S1x32.Idx → EReal) = (V c main_v43 : S1x32.Idx → EReal) :=
  funext fun y => blk1_4 V c t y y rfl rfl

/-- The table-level output of the arrays the launch finds. -/
abbrev outOf (c : Dev nD) : S100000x32.Idx → EReal :=
  outK (V c main_v40) (V c main_v12) (V c main_v30_0) (V c main_v42) (V c main_v43)

/-- WHAT POINT `t` WRITES BACK is block `t` of the output. -/
theorem flushed_out (c : Dev nD) (t : Fin cfg1.N) :
    (dat1 V c).flushed 5 t = ((cfg1.win 5).blk t).view.read (Elt Ideal) (outOf V c) := by
  show (cfg1.win 5).cut (grid1.coords t) ((dat1 V c).after 5 t) = _
  rw [after1_5]
  unfold out1_5
  rw [View.canon_unit_zero hz]
  simp only [View.ld_unit_zero (S := S5000x32) hz, View.ld_unit_zero (S := S5000x1) hz, View.ld_unit_zero (S := S5000x64) hz,
    View.ld_unit_zero (S := S64x32) hz, View.ld_unit_zero (S := S1x32) hz]
  have e := idx_facts1 t
  funext j
  rw [View.read_apply]
  refine out_block (V c main_v40) (V c main_v12) (V c main_v30_0) (V c main_v42) (V c main_v43) (t.val * 5000)
    (iblk1 V c 0 t) (iblk1 V c 1 t) (iblk1 V c 2 t) (iblk1 V c 3 t) (iblk1 V c 4 t)
    (rows1_0 V c t) (rows1_1 V c t) (rows1_2 V c t) (whole1_3 V c t) (whole1_4 V c t) j _ ?_ ?_
  · show win1_5.index t (0 : Fin 2) * 5000 + 1 * (j 0).val = t.val * 5000 + (j 0).val
    omega
  · show win1_5.index t (1 : Fin 2) * 32 + 1 * (j 1).val = (j 1).val
    omega

/-- An index of the array is in point `t`'s block of window 5 iff each coordinate is in the block's range. -/
theorem mem_blk1_5 (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v44).slice (win1_5.rect t)).set ↔ _
  rw [View.set_slice_whole, Rect.mem_set_unit]
  exact Iff.rfl

/-- Every index of window 5's array is in the block of the point its row falls in. -/
theorem cover1_5 (i : S100000x32.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 32 := (i 1).isLt
  obtain ⟨t, ht⟩ : ∃ t : Fin cfg1.N, t.val = (i 0).val / 5000 := ⟨⟨(i 0).val / 5000, by rw [hN]; omega⟩, rfl⟩
  have e := idx_facts1 t
  refine ⟨t, flush1_5 t, ?_⟩
  rw [mem_blk1_5]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 32 ≤ (i 1).val ∧ (i 1).val < win1_5.index t (1 : Fin 2) * 32 + 32
    omega

/-- THE RESULT ARRAY after the launch: the output of the arrays it found. -/
theorem arr_out (c : Dev nD) : (dat1 V c).arrAt 5 cfg1.N = outOf V c :=
  (dat1 V c).arrAt_eq_of_cover 5 (outOf V c) (fun t _ => flushed_out V c t) cover1_5

end Cert.KernelIdeal.Region1

end
-- ==== Proof.HostTerms.lean ====
/-
  The host-side pieces both programs compute from the edge list, named once.

  Row 0 of the edge list holds the source of every edge, row 1 its destination. A negative source index is shifted by
  the number of nodes (the indexing convention of the array library) before it is used to gather; the destination is used
  as it is to scatter. The neighbour count of a node is the number of edges landing on it, floored at one; the
  reciprocal-count column is 1 over that, laid out as a column.
-/
import proofs.«164449_j3186865734220_2_alg».proof.Proof.Gen.KernelIdeal
import Idealize.ShloMosaic.PureOps.Ideal

noncomputable section

namespace Cert.KernelIdeal.Host

open Cert.KernelIdeal Cert.KernelIdeal.Gen Idealize.ShloMosaic

variable (ei : IVec S2x1000000 32)

/-- The source index of every edge. -/
def srcIdx : IVec S1000000 32 :=
  shapeCast S1000000 (extractStridedSlice S1x1000000 ![0, 0] ei slices_S2x1000000_S1x1000000_0_0) shapeCasts_S1x1000000_S1000000

/-- The source indices, a negative one shifted by the number of nodes, as a column. -/
def srcCol : IVec S1000000x1 32 :=
  broadcastInDim S1000000x1 ![0] bcast_S1000000_S1000000x1_0
    (select (cmpi .slt (srcIdx ei) (broadcastInDim S1000000 ![] bcast_S_S1000000 (constantI S_ 32 0#32)))
      (addi (srcIdx ei) (broadcastInDim S1000000 ![] bcast_S_S1000000 (constantI S_ 32 100000#32))) (srcIdx ei))

/-- The destination indices as a column. -/
def dstCol : IVec S1000000x1 32 :=
  broadcastInDim S1000000x1 ![0] bcast_S1000000_S1000000x1_0
    (shapeCast S1000000 (extractStridedSlice S1x1000000 ![1, 0] ei slices_S2x1000000_S1x1000000_1_0) shapeCasts_S1x1000000_S1000000)

/-- The neighbour counts, floored at one. -/
def cntMax : FVec Ideal S100000 .f32 :=
  maximumf
    (Host.scatterAdd scatter_S100000_S1000000x1_S1000000_n_0_0_1
      (broadcastInDim S100000 ![] bcast_S_S100000 (constant (F := Ideal) S_ .f32 0x00000000#32)) (dstCol ei)
      (broadcastInDim S1000000 ![] bcast_S_S1000000 (constant (F := Ideal) S_ .f32 0x3F800000#32)))
    (broadcastInDim S100000 ![] bcast_S_S100000 (constant (F := Ideal) S_ .f32 0x3F800000#32))

/-- The reciprocal counts as a column. -/
def invCol : FVec Ideal S100000x1 .f32 :=
  shapeCast S100000x1
    (Host.divf (broadcastInDim S100000 ![] bcast_S_S100000 (constant (F := Ideal) S_ .f32 0x3F800000#32)) (cntMax ei))
    shapeCasts_S100000_S100000x1

/-- Rows gathered at the sources and summed onto the destinations, 64 wide. -/
def agg64 (tbl : FVec Ideal S100000x64 .f32) : FVec Ideal S100000x64 .f32 :=
  Host.scatterAdd scatter_S100000x64_S1000000x1_S1000000x64_1_0_0_1
    (broadcastInDim S100000x64 ![] bcast_S_S100000x64 (constant (F := Ideal) S_ .f32 0x00000000#32)) (dstCol ei)
    (Host.gather gather_S100000x64_S1000000x1_S1000000x64_1_0_n_n_0_1_164 tbl (srcCol ei))

/-- The same, 32 wide. -/
def agg32 (tbl : FVec Ideal S100000x32 .f32) : FVec Ideal S100000x32 .f32 :=
  Host.scatterAdd scatter_S100000x32_S1000000x1_S1000000x32_1_0_0_1
    (broadcastInDim S100000x32 ![] bcast_S_S100000x32 (constant (F := Ideal) S_ .f32 0x00000000#32)) (dstCol ei)
    (Host.gather gather_S100000x32_S1000000x1_S1000000x32_1_0_n_n_0_1_132 tbl (srcCol ei))

end Cert.KernelIdeal.Host

end
-- ==== Proof.KernelValue.lean ====
/-
  The kernel program's result as one function of its eight arguments.

  Reading the program's buffers backwards from the result: the result array is what the second launch leaves, the
  table-level output of the arrays it finds; of those, the aggregated projected features are host operations of the first
  launch's second result, the hidden features are the first launch's first result, and both are table-level functions of
  arrays that host operations computed from the arguments. Every host stretch is read by computation (each operation's
  result at its own buffer, every other buffer as it was), every launch by the cover of its result arrays by the blocks
  its points write back. A change of float format on the weights is the identity on the extended reals.
-/
import proofs.«164449_j3186865734220_2_alg».proof.Proof.Region0
import proofs.«164449_j3186865734220_2_alg».proof.Proof.Region1
import proofs.«164449_j3186865734220_2_alg».proof.Proof.HostTerms
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Folded

open Cert.KernelIdeal Cert.KernelIdeal.Gen Cert.KernelIdeal.Host Cert.Sage

/-- The hidden features as the kernel program computes them from its arguments. -/
def hiddenOfArgs (x0 : FVec Ideal S100000x64 .f32) (x1 : IVec S2x1000000 32) (x2 : FVec Ideal S64x64 .f32)
    (x3 : FVec Ideal S64 .f32) (x4 : FVec Ideal S64x64 .f32) : S100000x64.Idx → EReal :=
  hiddenK (agg64 x1 x0) x0 (invCol x1) (transpose S64x64 [1, 0] x2 transposes_S64x64_S64x64_1_0)
    (transpose S64x64 [1, 0] x4 transposes_S64x64_S64x64_1_0) (shapeCast S1x64 x3 shapeCasts_S64_S1x64)

/-- The result as the kernel program computes it from its arguments. -/
def resultOfArgs (x0 : FVec Ideal S100000x64 .f32) (x1 : IVec S2x1000000 32) (x2 : FVec Ideal S64x64 .f32)
    (x3 : FVec Ideal S64 .f32) (x4 : FVec Ideal S64x64 .f32) (x5 : FVec Ideal S32x64 .f32) (x6 : FVec Ideal S32 .f32)
    (x7 : FVec Ideal S32x64 .f32) : S100000x32.Idx → EReal :=
  outK (agg32 x1 (projK (hiddenOfArgs x0 x1 x2 x3 x4) (transpose S64x32 [1, 0] x5 transposes_S32x64_S64x32_1_0))) (invCol x1)
    (hiddenOfArgs x0 x1 x2 x3 x4) (transpose S64x32 [1, 0] x7 transposes_S32x64_S64x32_1_0)
    (shapeCast S1x32 x6 shapeCasts_S32_S1x32)

variable (m : (ℓ : Loc nD τ sig) → Buf (Elt Ideal) ℓ) (ρ : Dev nD → PrngReg)

/-! ## The arrays the first launch finds -/

set_option maxHeartbeats 4000000 in
theorem found0_agg (c : Dev nD) : (V1 m ρ c main_v22 : S100000x64.Idx → EReal) = agg64 (m ((c.tc : Thread nD τ).loc main_arg1)) (m ((c.tc : Thread nD τ).loc main_arg0)) := by
  dsimp only [V1, W1, hostOps0]; after_results_simp; all_goals rfl
set_option maxHeartbeats 4000000 in
theorem found0_x (c : Dev nD) : (V1 m ρ c main_arg0 : S100000x64.Idx → EReal) = (m ((c.tc : Thread nD τ).loc main_arg0)) := by
  dsimp only [V1, W1, hostOps0]; after_results_simp; all_goals rfl
set_option maxHeartbeats 4000000 in
theorem found0_inv (c : Dev nD) : (V1 m ρ c main_v12 : S100000x1.Idx → EReal) = invCol (m ((c.tc : Thread nD τ).loc main_arg1)) := by
  dsimp only [V1, W1, hostOps0]; after_results_simp; all_goals rfl
set_option maxHeartbeats 4000000 in
theorem found0_wl (c : Dev nD) :
    (V1 m ρ c main_v24 : S64x64.Idx → EReal) = transpose S64x64 [1, 0] (m ((c.tc : Thread nD τ).loc main_arg2)) transposes_S64x64_S64x64_1_0 := by
  dsimp only [V1, W1, hostOps0]; after_results_simp; all_goals rfl
set_option maxHeartbeats 4000000 in
theorem found0_wr (c : Dev nD) :
    (V1 m ρ c main_v26 : S64x64.Idx → EReal) = transpose S64x64 [1, 0] (m ((c.tc : Thread nD τ).loc main_arg4)) transposes_S64x64_S64x64_1_0 := by
  dsimp only [V1, W1, hostOps0]; after_results_simp; all_goals rfl
set_option maxHeartbeats 4000000 in
theorem found0_b (c : Dev nD) : (V1 m ρ c main_v29 : S1x64.Idx → EReal) = shapeCast S1x64 (m ((c.tc : Thread nD τ).loc main_arg3)) shapeCasts_S64_S1x64 := by
  dsimp only [V1, W1, hostOps0]; after_results_simp; all_goals rfl
set_option maxHeartbeats 4000000 in
theorem found0_w2 (c : Dev nD) :
    (V1 m ρ c main_v28 : S64x32.Idx → EReal) = transpose S64x32 [1, 0] (m ((c.tc : Thread nD τ).loc main_arg5)) transposes_S32x64_S64x32_1_0 := by
  dsimp only [V1, W1, hostOps0]; after_results_simp; all_goals rfl

/-- The hidden features the first launch leaves are those of the arguments. -/
theorem hidden_found (c : Dev nD) :
    Region0.hiddenOf (V1 m ρ) c
      = hiddenOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Region0.hiddenOf hiddenOfArgs
  rw [found0_agg, found0_x, found0_inv, found0_wl, found0_wr, found0_b]

/-! ## The buffers between the launches -/

set_option maxHeartbeats 4000000 in
theorem mid_src (c : Dev nD) : (W2 m ρ c (Proc.devRef .tc main_v1) : S1000000.Idx → BitVec 32) = srcIdx (m ((c.tc : Thread nD τ).loc main_arg1)) :=
  (W2_of_ne m ρ c main_v1 (by decide)).trans (by dsimp only [W1, hostOps0]; after_results_simp; all_goals rfl)
set_option maxHeartbeats 4000000 in
theorem mid_dst (c : Dev nD) : (W2 m ρ c (Proc.devRef .tc main_v3) : S1000000.Idx → BitVec 32)
    = shapeCast S1000000 (extractStridedSlice S1x1000000 ![1, 0] (m ((c.tc : Thread nD τ).loc main_arg1)) slices_S2x1000000_S1x1000000_1_0)
        shapeCasts_S1x1000000_S1000000 :=
  (W2_of_ne m ρ c main_v3 (by decide)).trans (by dsimp only [W1, hostOps0]; after_results_simp; all_goals rfl)
set_option maxHeartbeats 4000000 in
theorem mid_arg6 (c : Dev nD) : (W2 m ρ c (Proc.devRef .tc main_arg6) : S32.Idx → EReal) = (m ((c.tc : Thread nD τ).loc main_arg6)) :=
  (W2_of_ne m ρ c main_arg6 (by decide)).trans (by dsimp only [W1, hostOps0]; after_results_simp; all_goals rfl)
set_option maxHeartbeats 4000000 in
theorem mid_arg7 (c : Dev nD) : (W2 m ρ c (Proc.devRef .tc main_arg7) : S32x64.Idx → EReal) = (m ((c.tc : Thread nD τ).loc main_arg7)) :=
  (W2_of_ne m ρ c main_arg7 (by decide)).trans (by dsimp only [W1, hostOps0]; after_results_simp; all_goals rfl)
/-- The reciprocal-count column is an input of the first launch: it leaves it as it found it. -/
theorem mid_inv (c : Dev nD) : (W2 m ρ c (Proc.devRef .tc main_v12) : S100000x1.Idx → EReal) = invCol (m ((c.tc : Thread nD τ).loc main_arg1)) :=
  ((W2_arr m ρ c 2).trans (((dat0 (V1 m ρ) c).arrAt_in 2 rfl _).trans (A_eq0 (V1 m ρ) c 2))).trans (found0_inv m ρ c)
theorem mid_hidden (c : Dev nD) : (W2 m ρ c (Proc.devRef .tc main_v30_0) : S100000x64.Idx → EReal)
    = hiddenOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ((W2_arr m ρ c 7).trans (Region0.arr_hidden (V1 m ρ) c)).trans (hidden_found m ρ c)
theorem mid_proj (c : Dev nD) : (W2 m ρ c (Proc.devRef .tc main_v30_1) : S100000x32.Idx → EReal)
    = projK (hiddenOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        (transpose S64x32 [1, 0] (m ((c.tc : Thread nD τ).loc main_arg5)) transposes_S32x64_S64x32_1_0) := by
  refine ((W2_arr m ρ c 8).trans (Region0.arr_proj (V1 m ρ) c)).trans ?_
  rw [hidden_found, found0_w2]

/-! ## The arrays the second launch finds -/

set_option maxHeartbeats 4000000 in
theorem found1_agg (c : Dev nD) : (V3 m ρ c main_v40 : S100000x32.Idx → EReal)
    = agg32 (m ((c.tc : Thread nD τ).loc main_arg1))
        (projK (hiddenOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (transpose S64x32 [1, 0] (m ((c.tc : Thread nD τ).loc main_arg5)) transposes_S32x64_S64x32_1_0)) := by
  dsimp only [V3, W3, hostOps1]; after_results_simp
  rw [mid_src, mid_dst, mid_proj]; rfl
set_option maxHeartbeats 4000000 in
theorem found1_inv (c : Dev nD) : (V3 m ρ c main_v12 : S100000x1.Idx → EReal) = invCol (m ((c.tc : Thread nD τ).loc main_arg1)) := by
  dsimp only [V3, W3, hostOps1]; after_results_simp
  exact mid_inv m ρ c
set_option maxHeartbeats 4000000 in
theorem found1_hidden (c : Dev nD) : (V3 m ρ c main_v30_0 : S100000x64.Idx → EReal)
    = hiddenOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  dsimp only [V3, W3, hostOps1]; after_results_simp
  exact mid_hidden m ρ c
set_option maxHeartbeats 4000000 in
theorem found1_w (c : Dev nD) :
    (V3 m ρ c main_v42 : S64x32.Idx → EReal) = transpose S64x32 [1, 0] (m ((c.tc : Thread nD τ).loc main_arg7)) transposes_S32x64_S64x32_1_0 := by
  dsimp only [V3, W3, hostOps1]; after_results_simp
  rw [mid_arg7]; rfl
set_option maxHeartbeats 4000000 in
theorem found1_b (c : Dev nD) : (V3 m ρ c main_v43 : S1x32.Idx → EReal) = shapeCast S1x32 (m ((c.tc : Thread nD τ).loc main_arg6)) shapeCasts_S32_S1x32 := by
  dsimp only [V3, W3, hostOps1]; after_results_simp
  rw [mid_arg6]; rfl

/-- THE RESULT BUFFER at the end of the program: the result of the arguments. -/
theorem result_eq (c : Dev nD) : (W4 m ρ c (Proc.devRef .tc main_v44) : S100000x32.Idx → EReal)
    = resultOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine ((W4_arr m ρ c 5).trans (Region1.arr_out (V3 m ρ) c)).trans ?_
  unfold Region1.outOf resultOfArgs
  rw [found1_agg, found1_inv, found1_hidden, found1_w, found1_b]

end Cert.KernelIdeal.Folded

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«164449_j3186865734220_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.RefValue.lean ====
/-
  The reference program's result as one function of its eight arguments.

  The reference averages the neighbour features (the neighbour sum divided by the count, the count broadcast along the
  rows), applies a dense layer with the bias added right after the first product, adds the node's own product, and
  rectifies; then does the same to the hidden features without the rectifier. Read entry by entry: a general dot product
  of two matrices is the plain sum of products, a table divided by a column broadcast along its rows is divided row by
  row, a bias broadcast over the rows is added column by column.
-/
import proofs.«164449_j3186865734220_2_alg».proof.Proof.Gen.ReferenceIdeal.Run
import proofs.«164449_j3186865734220_2_alg».proof.Proof.Algebra
import proofs.«164449_j3186865734220_2_alg».proof.Proof.LibLayerForms
import proofs.«164449_j3186865734220_2_alg».proof.Proof.LibPlainDot
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.Folded

open Cert.ReferenceIdeal Cert.ReferenceIdeal.Gen Cert.Sage Cert.DenseLayer Cert.LayerForms
open Idealize.ShloMosaic Idealize.ShloMosaic.TcCoe Idealize.SL.Sem Idealize.ShloMosaic.ValueIdx

variable (ei : IVec S2x1000000 32)

/-- The source index of every edge. -/
def srcIdx : IVec S1000000 32 :=
  shapeCast S1000000 (extractStridedSlice S1x1000000 ![0, 0] ei slices_S2x1000000_S1x1000000_0_0) shapeCasts_S1x1000000_S1000000

/-- The source indices, a negative one shifted by the number of nodes, as a column. -/
def srcCol : IVec S1000000x1 32 :=
  broadcastInDim S1000000x1 ![0] bcast_S1000000_S1000000x1_0
    (select (cmpi .slt (srcIdx ei) (broadcastInDim S1000000 ![] bcast_S_S1000000 (constantI S_ 32 0#32)))
      (addi (srcIdx ei) (broadcastInDim S1000000 ![] bcast_S_S1000000 (constantI S_ 32 100000#32))) (srcIdx ei))

/-- The destination indices as a column. -/
def dstCol : IVec S1000000x1 32 :=
  broadcastInDim S1000000x1 ![0] bcast_S1000000_S1000000x1_0
    (shapeCast S1000000 (extractStridedSlice S1x1000000 ![1, 0] ei slices_S2x1000000_S1x1000000_1_0) shapeCasts_S1x1000000_S1000000)

/-- The neighbour counts, floored at one. -/
def cntMax : FVec Ideal S100000 .f32 :=
  maximumf
    (Host.scatterAdd scatter_S100000_S1000000x1_S1000000_n_0_0_1
      (broadcastInDim S100000 ![] bcast_S_S100000 (constant (F := Ideal) S_ .f32 0x00000000#32)) (dstCol ei)
      (broadcastInDim S1000000 ![] bcast_S_S1000000 (constant (F := Ideal) S_ .f32 0x3F800000#32)))
    (broadcastInDim S100000 ![] bcast_S_S100000 (constant (F := Ideal) S_ .f32 0x3F800000#32))

/-- Rows gathered at the sources and summed onto the destinations, 64 wide. -/
def agg64 (tbl : FVec Ideal S100000x64 .f32) : FVec Ideal S100000x64 .f32 :=
  Host.scatterAdd scatter_S100000x64_S1000000x1_S1000000x64_1_0_0_1
    (broadcastInDim S100000x64 ![] bcast_S_S100000x64 (constant (F := Ideal) S_ .f32 0x00000000#32)) (dstCol ei)
    (Host.gather gather_S100000x64_S1000000x1_S1000000x64_1_0_n_n_0_1_164 tbl (srcCol ei))

/-- A table divided by a count vector broadcast along its rows is divided row by row. -/
theorem div_rows {b : ℕ} (A : FVec Ideal ⟨2, ![100000, b]⟩ .f32) (cm : FVec Ideal ⟨1, ![100000]⟩ .f32)
    (h1 : (⟨1, ![100000]⟩ : Shape).BroadcastsInDim ⟨2, ![100000, 1]⟩ ![0])
    (h2 : (⟨2, ![100000, 1]⟩ : Shape).BroadcastsInDim ⟨2, ![100000, b]⟩ ![0, 1]) (i : Fin 100000) (k : Fin b) :
    Host.divf A (broadcastInDim ⟨2, ![100000, b]⟩ ![0, 1] h2 (broadcastInDim ⟨2, ![100000, 1]⟩ ![0] h1 cm)) (ix2 i k)
      = Ideal.div (A (ix2 i k)) (cm (ix1 i)) := by
  show Ideal.div (A (ix2 i k))
    (broadcastInDim ⟨2, ![100000, b]⟩ ![0, 1] h2 (broadcastInDim ⟨2, ![100000, 1]⟩ ![0] h1 cm) (ix2 i k)) = _
  rw [broadcastInDim_apply ![0, 1] h2 _ (ix2 i k) (ix2 i (0 : Fin 1)) (fun a => match a with
      | ⟨0, _⟩ => by show i.val = if (100000 : ℕ) = 1 then 0 else i.val; rw [if_neg (by decide)]
      | ⟨1, _⟩ => by show 0 = if (1 : ℕ) = 1 then 0 else k.val; rw [if_pos rfl]),
    broadcastInDim_apply ![0] h1 cm (ix2 i (0 : Fin 1)) (ix1 i) (fun a => match a with
      | ⟨0, _⟩ => by show i.val = if (100000 : ℕ) = 1 then 0 else i.val; rw [if_neg (by decide)])]

/-- A table divided row by row by a count vector. -/
def divAt {b : ℕ} (A : FVec Ideal ⟨2, ![100000, b]⟩ .f32) (cm : FVec Ideal ⟨1, ![100000]⟩ .f32) (i : Fin 100000) (k : Fin b) : EReal :=
  Ideal.div (A (ix2 i k)) (cm (ix1 i))
def divRows {b : ℕ} (A : FVec Ideal ⟨2, ![100000, b]⟩ .f32) (cm : FVec Ideal ⟨1, ![100000]⟩ .f32) :
    (⟨2, ![100000, b]⟩ : Shape).Idx → EReal := fun j => divAt A cm (j 0) (j 1)
theorem divRows_ix2 {b : ℕ} (A : FVec Ideal ⟨2, ![100000, b]⟩ .f32) (cm : FVec Ideal ⟨1, ![100000]⟩ .f32) (i : Fin 100000)
    (k : Fin b) : divRows A cm (ix2 i k) = Ideal.div (A (ix2 i k)) (cm (ix1 i)) := rfl

theorem div_rows_fn {b : ℕ} (A : FVec Ideal ⟨2, ![100000, b]⟩ .f32) (cm : FVec Ideal ⟨1, ![100000]⟩ .f32)
    (h1 : (⟨1, ![100000]⟩ : Shape).BroadcastsInDim ⟨2, ![100000, 1]⟩ ![0])
    (h2 : (⟨2, ![100000, 1]⟩ : Shape).BroadcastsInDim ⟨2, ![100000, b]⟩ ![0, 1]) :
    Host.divf A (broadcastInDim ⟨2, ![100000, b]⟩ ![0, 1] h2 (broadcastInDim ⟨2, ![100000, 1]⟩ ![0] h1 cm)) = divRows A cm := by
  funext j
  obtain ⟨i, k, rfl⟩ : ∃ (i : Fin 100000) (k : Fin b), j = ix2 i k := ⟨j 0, j 1, eq_ix2 j⟩
  rw [div_rows, divRows_ix2]

/-- The aggregation is the neighbour sum. -/
theorem agg64_eq (tbl : FVec Ideal S100000x64 .f32) : agg64 ei tbl = nbrTbl (srcCol ei) (dstCol ei) tbl :=
  scatter_gather_eq scatter_S100000x64_S1000000x1_S1000000x64_1_0_0_1_wf gather_S100000x64_S1000000x1_S1000000x64_1_0_n_n_0_1_164_wf
    _ rfl _ rfl _ (fun j => Ideal.ofBits_zero_f32) (srcCol ei) (dstCol ei) tbl

/-- The count of a node. -/
def cnt (i : Fin 100000) : EReal := cntMax ei (ix1 i)

section Terms
variable (x0 : FVec Ideal S100000x64 .f32) (x2 : FVec Ideal S64x64 .f32) (x3 : FVec Ideal S64 .f32) (x4 : FVec Ideal S64x64 .f32)
  (x5 : FVec Ideal S32x64 .f32) (x6 : FVec Ideal S32 .f32) (x7 : FVec Ideal S32x64 .f32)

/-- The hidden features as the reference program spells them. -/
def hiddenTerm : FVec Ideal S100000x64 .f32 :=
  maximumf
    (addf
      (addf
        (Host.dotGeneral dot_S100000x64_S64x64_S100000x64_1_0_0_1_n_n none
          (Host.divf (agg64 ei x0)
            (broadcastInDim S100000x64 ![0, 1] bcast_S100000x1_S100000x64_0_1
              (broadcastInDim S100000x1 ![0] bcast_S100000_S100000x1_0 (cntMax ei))))
          (transpose S64x64 [1, 0] x2 transposes_S64x64_S64x64_1_0))
        (broadcastInDim S100000x64 ![0, 1] bcast_S1x64_S100000x64_0_1 (broadcastInDim S1x64 ![1] bcast_S64_S1x64_1 x3)))
      (Host.dotGeneral dot_S100000x64_S64x64_S100000x64_1_0_0_1_n_n none x0
        (transpose S64x64 [1, 0] x4 transposes_S64x64_S64x64_1_0)))
    (broadcastInDim S100000x64 ![] bcast_S_S100000x64 (constant (F := Ideal) S_ .f32 0x00000000#32))

/-- The hidden features of the reference, entry by entry. -/
def hiddenOfArgs : S100000x64.Idx → EReal :=
  hiddenR (nbrTbl (srcCol ei) (dstCol ei) x0) x0 (cnt ei) (transpose S64x64 [1, 0] x2 transposes_S64x64_S64x64_1_0)
    (transpose S64x64 [1, 0] x4 transposes_S64x64_S64x64_1_0) (fun q => x3 (ix1 q))

theorem hiddenTerm_eq : hiddenTerm ei x0 x2 x3 x4 = hiddenOfArgs ei x0 x2 x3 x4 := by
  unfold hiddenTerm hiddenOfArgs
  rw [host_relu, host_layer dot_S100000x64_S64x64_S100000x64_1_0_0_1_n_n rfl,
    div_rows_fn (b := 64) (agg64 ei x0) (cntMax ei) bcast_S100000_S100000x1_0 bcast_S100000x1_S100000x64_0_1, agg64_eq]
  funext j
  obtain ⟨i, q, rfl⟩ : ∃ (i : Fin 100000) (q : Fin 64), j = ix2 i q := ⟨j 0, j 1, eq_ix2 j⟩
  rw [hiddenR_ix2]
  unfold hiddenRAt relu
  rw [addf_apply, dense_ix2, Cert.LibPlainDot.dot_plain_apply dot_S100000x64_S64x64_S100000x64_1_0_0_1_n_n rfl]
  unfold denseAt
  simp only [divRows_ix2]
  rfl

/-- The result as the reference program spells it. -/
def resultTerm : FVec Ideal S100000x32 .f32 :=
  addf
    (addf
      (Host.dotGeneral dot_S100000x64_S64x32_S100000x32_1_0_0_1_n_n none
        (Host.divf (agg64 ei (hiddenTerm ei x0 x2 x3 x4))
          (broadcastInDim S100000x64 ![0, 1] bcast_S100000x1_S100000x64_0_1
            (broadcastInDim S100000x1 ![0] bcast_S100000_S100000x1_0 (cntMax ei))))
        (transpose S64x32 [1, 0] x5 transposes_S32x64_S64x32_1_0))
      (broadcastInDim S100000x32 ![0, 1] bcast_S1x32_S100000x32_0_1 (broadcastInDim S1x32 ![1] bcast_S32_S1x32_1 x6)))
    (Host.dotGeneral dot_S100000x64_S64x32_S100000x32_1_0_0_1_n_n none (hiddenTerm ei x0 x2 x3 x4)
      (transpose S64x32 [1, 0] x7 transposes_S32x64_S64x32_1_0))

/-- The result of the reference, entry by entry. -/
def resultOfArgs : S100000x32.Idx → EReal :=
  outR (nbrTbl (srcCol ei) (dstCol ei) (hiddenOfArgs ei x0 x2 x3 x4)) (cnt ei) (hiddenOfArgs ei x0 x2 x3 x4)
    (transpose S64x32 [1, 0] x5 transposes_S32x64_S64x32_1_0) (transpose S64x32 [1, 0] x7 transposes_S32x64_S64x32_1_0)
    (fun q => x6 (ix1 q))

theorem resultTerm_eq : resultTerm ei x0 x2 x3 x4 x5 x6 x7 = resultOfArgs ei x0 x2 x3 x4 x5 x6 x7 := by
  unfold resultTerm resultOfArgs
  rw [host_layer dot_S100000x64_S64x32_S100000x32_1_0_0_1_n_n rfl, hiddenTerm_eq,
    div_rows_fn (b := 64) (agg64 ei (hiddenOfArgs ei x0 x2 x3 x4)) (cntMax ei) bcast_S100000_S100000x1_0 bcast_S100000x1_S100000x64_0_1,
    agg64_eq]
  funext j
  obtain ⟨i, q, rfl⟩ : ∃ (i : Fin 100000) (q : Fin 32), j = ix2 i q := ⟨j 0, j 1, eq_ix2 j⟩
  rw [outR_ix2]
  unfold outRAt
  rw [addf_apply, dense_ix2, Cert.LibPlainDot.dot_plain_apply dot_S100000x64_S64x32_S100000x32_1_0_0_1_n_n rfl]
  unfold denseAt
  simp only [divRows_ix2]
  rfl

end Terms

set_option maxHeartbeats 4000000 in
/-- The reference run's result term is the spelt term of the arguments. -/
theorem res_eq (m : (ℓ : Loc nD τ sig) → Buf (Elt Ideal) ℓ) (c : Dev nD) :
    (Cert.ReferenceIdeal.Value.res_main_v58 m c : S100000x32.Idx → EReal)
      = resultTerm (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v58
  rfl

end Cert.ReferenceIdeal.Folded

end
-- ==== Proof.Finite.lean ====
/-
  The precondition says every float argument is a real number.

  The precondition is a conjunction, over the seven float arguments, of "every entry has absolute value below +∞", each
  conjunct a reduction by `and` of the entrywise comparison into a single truth value. A reduction by `and` that came out
  true met only true entries, and an extended real whose absolute value max x (−x) is below +∞ is neither infinity: it
  is the image of a real.
-/
import proofs.«164449_j3186865734220_2_alg».proof.Pre_finite_inputs
import proofs.«164449_j3186865734220_2_alg».proof.Proof.Gen.Pre_finite_inputs
import proofs.«164449_j3186865734220_2_alg».proof.Proof.LibMeanProj
import Idealize.ShloMosaic.Lib.ReduceAll
import Idealize.ShloMosaic.Lib.ValueIdx
import Idealize.ShloMosaic.PureOps.Ideal.Laws

noncomputable section

namespace Cert.Sage.Finite

open Cert.Pre_finite_inputs Idealize.ShloMosaic
open Cert.LibMeanProj (IsReal)

instance : Subsingleton S_.Idx := ⟨fun a b => funext fun d => d.elim0⟩

/-- An extended real whose absolute value is below +∞ is the image of a real. -/
theorem real_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- Under the precondition every entry of every float argument is the image of a real. -/
theorem real_of_pre (x0 : FVec Ideal S100000x64 .f32) (x1 : IVec S2x1000000 32) (x2 : FVec Ideal S64x64 .f32)
    (x3 : FVec Ideal S64 .f32) (x4 : FVec Ideal S64x64 .f32) (x5 : FVec Ideal S32x64 .f32) (x6 : FVec Ideal S32 .f32)
    (x7 : FVec Ideal S32x64 .f32) (h : fn (F := Ideal) x0 x1 x2 x3 x4 x5 x6 x7 = fun _ => 1#1) :
    (∀ j, IsReal (x0 j)) ∧ (∀ j, IsReal (x2 j)) ∧ (∀ j, IsReal (x3 j)) ∧ (∀ j, IsReal (x4 j)) ∧ (∀ j, IsReal (x5 j))
      ∧ (∀ j, IsReal (x6 j)) ∧ (∀ j, IsReal (x7 j)) := by
  have h0 := congrFun h ValueIdx.ix0
  dsimp only [fn, fn_part1] at h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  exact ⟨fun j => real_of_abs_lt_top _ (Host.reduce_andi_all _ _ _ _ _ e0 j),
    fun j => real_of_abs_lt_top _ (Host.reduce_andi_all _ _ _ _ _ e2 j),
    fun j => real_of_abs_lt_top _ (Host.reduce_andi_all _ _ _ _ _ e3 j),
    fun j => real_of_abs_lt_top _ (Host.reduce_andi_all _ _ _ _ _ e4 j),
    fun j => real_of_abs_lt_top _ (Host.reduce_andi_all _ _ _ _ _ e5 j),
    fun j => real_of_abs_lt_top _ (Host.reduce_andi_all _ _ _ _ _ e6 j),
    fun j => real_of_abs_lt_top _ (Host.reduce_andi_all _ _ _ _ _ e7 j)⟩

end Cert.Sage.Finite

end
-- ==== Proof.LibScatterAddVec.lean ====
/-
  An accumulating scatter `x.at[idx].add(u)` of a vector `x : [N]` on the host, on the extended reals, read at an
  index.

  Summing the entries of `u : [E]` into the entries of `x` that an integer vector `idx` names lowers to a scatter
  whose body is an addition, with one inserted window axis (the vector's only axis), no update window axis (each
  scatter index carries one scalar) and a trailing index-vector axis of extent one on the scatter indices. Update
  entry `e` lands on entry `i` of the vector exactly when the scatter index `idx (e, 0)`, read as a signed integer,
  is `i`; an index outside `[0, N)` lands nowhere and its entry is dropped. So entry `i` of the result is

      x i + ∑ over the e with idx (e, 0) = i of u e,

  the sum running over the same set of positions as for a table of rows scattered by the same indices.
  The statement takes the dimension numbers as a record built from the literal lists; a printed record with the same
  lists is equal to it by `rfl`.
-/
import Idealize.ShloMosaic.PureOps.Ideal.Laws
import Idealize.ShloMosaic.Lib.ValueIdx
import proofs.«164449_j3186865734220_2_alg».proof.Proof.LibScatterAddRows

noncomputable section

open scoped BigOperators

namespace Cert.LibScatterAddVec

open Idealize.ShloMosaic Idealize.ShloMosaic.ValueIdx
open Cert.LibScatterAddRows (landing)

/-- The dimension numbers of `x.at[idx].add(u)` for a vector `[N]`, scatter indices `[E, 1]`, updates `[E]`. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : ℕ} (wf : ScatterDims.WF ⟨1, ![N]⟩ ⟨2, ![E, 1]⟩ ⟨1, ![E]⟩ [] [0] [0] 1)
  (idx : IVec ⟨2, ![E, 1]⟩ w) (e : Fin E)

/-- On the vector's axis the window starts at the scatter index `idx (e, 0)`, read signed. -/
theorem start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem zero_not_mem_sKept : (0 : Fin 1) ∉ (vecDims N E wf).sKept := by
  simp [ScatterDims.sKept, Shape.kept]

/-- The vector's axis is inserted: the window coordinate there is zero. -/
theorem window_zero : (vecDims N E wf).window (ix1 e) 0 = 0 := by
  unfold ScatterDims.window
  rw [dif_neg (zero_not_mem_sKept wf)]

end Coordinates

section Landing
variable {N E w : ℕ} (wf : ScatterDims.WF ⟨1, ![N]⟩ ⟨2, ![E, 1]⟩ ⟨1, ![E]⟩ [] [0] [0] 1)
  (idx : IVec ⟨2, ![E, 1]⟩ w)

/-- Update entry `e` lands on entry `i` of the vector exactly when its scatter index, read signed, is `i`. -/
theorem resultIdx?_vec (e : Fin E) (i : Fin N) :
    (vecDims N E wf).resultIdx? (ix1 e) idx = some (ix1 i) ↔ (idx (ix2 e (0 : Fin 1))).toInt = (i.val : ℤ) := by
  unfold ScatterDims.resultIdx?
  split
  · rename_i h
    rw [Option.some.injEq]
    have hr := h 0
    rw [start_zero, window_zero] at hr
    constructor
    · intro hf
      have h0 : ((vecDims N E wf).start (ix1 e) idx 0 + ((vecDims N E wf).window (ix1 e) 0 : ℕ)).toNat = i.val :=
        congrArg (fun f => (f 0).val) hf
      rw [start_zero, window_zero] at h0
      omega
    · intro h0
      funext a
      refine Fin.ext ?_
      match a with
      | ⟨0, _⟩ =>
        show ((vecDims N E wf).start (ix1 e) idx 0 + ((vecDims N E wf).window (ix1 e) 0 : ℕ)).toNat = i.val
        rw [start_zero, window_zero]; omega
  · rename_i h
    constructor
    · intro hf; exact absurd hf (by simp)
    · intro h0
      exfalso
      apply h
      intro a
      match a with
      | ⟨0, _⟩ =>
        show 0 ≤ (vecDims N E wf).start (ix1 e) idx 0 + ((vecDims N E wf).window (ix1 e) 0 : ℕ)
          ∧ (vecDims N E wf).start (ix1 e) idx 0 + ((vecDims N E wf).window (ix1 e) 0 : ℕ) < (N : ℤ)
        rw [start_zero, window_zero, h0]
        have := i.isLt
        constructor <;> omega

/-- THE ACCUMULATING SCATTER READ AT `i`: the vector's entry plus the updates summed over the positions whose
    scatter index is `i`. -/
theorem hostScatterAdd_vec_apply (x : (⟨1, ![N]⟩ : Shape).Idx → EReal) (upd : (⟨1, ![E]⟩ : Shape).Idx → EReal)
    (i : Fin N) :
    Ideal.hostScatterAdd (vecDims N E wf) x idx upd (ix1 i) = x (ix1 i) + ∑ e ∈ landing idx i.val, upd (ix1 e) := by
  unfold Ideal.hostScatterAdd
  congr 1
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (resultIdx?_vec wf idx e i).mp (Finset.mem_filter.mp hj).2⟩
  · intro e he
    exact Finset.mem_filter.mpr ⟨Finset.mem_univ _, (resultIdx?_vec wf idx e i).mpr (Finset.mem_filter.mp he).2⟩
  · intro j _
    exact (eq_ix1 j).symm
  · intro e _
    rfl
  · intro j _
    exact congrArg upd (eq_ix1 j)

end Landing

/-- The same for a printed `stablehlo.scatter` with an `add` body whose dimension numbers are these lists. -/
theorem scatterAdd_vec_apply {N E w : ℕ} {φ : FTy}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecDims N E wf)
    (idx : IVec ⟨2, ![E, 1]⟩ w) (x : FVec Ideal ⟨1, ![N]⟩ φ) (upd : FVec Ideal ⟨1, ![E]⟩ φ) (i : Fin N) :
    Host.scatterAdd d x idx upd (ix1 i) = x (ix1 i) + ∑ e ∈ landing idx i.val, upd (ix1 e) := by
  subst hd
  exact hostScatterAdd_vec_apply wf idx x upd i

end Cert.LibScatterAddVec

end
-- ==== Proof.Bridge.lean ====
/-
  The two programs' results are one function of the arguments, when the float arguments are real.

  Both programs gather at the same source column and scatter onto the same destination column, so both see the same
  neighbour sums; both floor the same neighbour counts at one. The count of a node is 0 + (a sum of ones) floored at
  one: a real number that is at least one, so not zero, and the kernel program's column holds its reciprocal. With that,
  the hidden layers agree and are real, and the output layers agree because averaging commutes with the projection on
  real data.
-/
import proofs.«164449_j3186865734220_2_alg».proof.Proof.KernelValue
import proofs.«164449_j3186865734220_2_alg».proof.Proof.RefValue
import proofs.«164449_j3186865734220_2_alg».proof.Proof.LibScatterAddVec
import proofs.«164449_j3186865734220_2_alg».proof.Proof.LibColumn
import Idealize.ShloMosaic.Lib.ValueLayout

set_option maxRecDepth 16384

noncomputable section

open scoped BigOperators

namespace Cert.Sage.Bridge

open Cert.KernelIdeal Cert.KernelIdeal.Gen Cert.KernelIdeal.Host Cert.Sage
open Idealize.ShloMosaic Idealize.ShloMosaic.ValueIdx
open Cert.LibMeanProj (IsReal)

variable (ei : IVec S2x1000000 32)

/-- The float 1.0 is the real number one. -/
theorem one_eq : Ideal.ofBits .f32 0x3F800000#32 = (1 : EReal) := by
  simp [Ideal.ofBits, Ideal.ieee, -EReal.coe_mul]; norm_num

/-- The kernel program's aggregations are neighbour sums. -/
theorem agg64_eq (tbl : FVec Ideal S100000x64 .f32) : agg64 ei tbl = nbrTbl (srcCol ei) (dstCol ei) tbl :=
  scatter_gather_eq scatter_S100000x64_S1000000x1_S1000000x64_1_0_0_1_wf gather_S100000x64_S1000000x1_S1000000x64_1_0_n_n_0_1_164_wf
    _ rfl _ rfl _ (fun j => Ideal.ofBits_zero_f32) (srcCol ei) (dstCol ei) tbl
theorem agg32_eq (tbl : FVec Ideal S100000x32 .f32) : agg32 ei tbl = nbrTbl (srcCol ei) (dstCol ei) tbl :=
  scatter_gather_eq scatter_S100000x32_S1000000x1_S1000000x32_1_0_0_1_wf gather_S100000x32_S1000000x1_S1000000x32_1_0_n_n_0_1_132_wf
    _ rfl _ rfl _ (fun j => Ideal.ofBits_zero_f32) (srcCol ei) (dstCol ei) tbl

/-- A rank-0 constant broadcast to a shape reads, at every index, the constant's value. -/
theorem bcast_const {S : Shape} (h : (⟨0, ![]⟩ : Shape).BroadcastsInDim S ![]) (w : BitVec 32) (j : S.Idx) :
    broadcastInDim S ![] h (constant (F := Ideal) ⟨0, ![]⟩ .f32 w) j = Ideal.ofBits .f32 w := rfl

/-- The host's quotient, entry by entry. -/
theorem hostDivf_apply {S : Shape} (a b : FVec Ideal S .f32) (j : S.Idx) : Host.divf a b j = Ideal.div (a j) (b j) := rfl

/-- Every neighbour count, floored at one, is a nonzero real. -/
theorem cnt_real (i : Fin 100000) : ∃ d : ℝ, d ≠ 0 ∧ cntMax ei (ix1 i) = (d : EReal) := by
  unfold cntMax
  rw [maximumf_apply, bcast_const,
    Cert.LibScatterAddVec.scatterAdd_vec_apply scatter_S100000_S1000000x1_S1000000_n_0_0_1_wf
      scatter_S100000_S1000000x1_S1000000_n_0_0_1 rfl (dstCol ei) _ _ i,
    bcast_const, one_eq, Ideal.ofBits_zero_f32]
  have hs : (∑ e ∈ Cert.LibScatterAddRows.landing (dstCol ei) i.val,
        (broadcastInDim S1000000 ![] bcast_S_S1000000 (constant (F := Ideal) S_ .f32 0x3F800000#32) : S1000000.Idx → EReal) (ix1 e))
      = ∑ e ∈ Cert.LibScatterAddRows.landing (dstCol ei) i.val, (1 : EReal) :=
    Finset.sum_congr rfl fun e _ => (bcast_const _ _ _).trans one_eq
  rw [hs]
  have hr : IsReal ((0 : EReal) + ∑ e ∈ Cert.LibScatterAddRows.landing (dstCol ei) i.val, (1 : EReal)) :=
    IsReal.add Cert.LibMeanProj.isReal_zero (IsReal.sum _ _ fun e _ => ⟨1, EReal.coe_one.symm⟩)
  obtain ⟨r, hr⟩ := hr
  rw [hr]
  refine ⟨max r 1, ne_of_gt (lt_of_lt_of_le one_pos (le_max_right r 1)), ?_⟩
  rw [EReal.coe_strictMono.monotone.map_max, EReal.coe_one]

/-- The kernel program's column holds the reciprocal of the count. -/
theorem inv_eq (i : Fin 100000) : invCol ei (ix2 i (0 : Fin 1)) = Ideal.div 1 (cntMax ei (ix1 i)) := by
  unfold invCol
  rw [Cert.LibColumn.shapeCast_a_a1_apply, hostDivf_apply, bcast_const, one_eq]

/-- The two programs gather at one source column, scatter onto one destination column and count the same neighbours. -/
theorem src_same : Cert.ReferenceIdeal.Folded.srcCol ei = srcCol ei := rfl
theorem dst_same : Cert.ReferenceIdeal.Folded.dstCol ei = dstCol ei := rfl
theorem cnt_same : Cert.ReferenceIdeal.Folded.cnt ei = fun i => cntMax ei (ix1 i) := rfl

/-- THE TWO RESULTS ARE ONE FUNCTION of real float arguments. -/
theorem results_agree (x0 : FVec Ideal S100000x64 .f32) (x2 : FVec Ideal S64x64 .f32) (x3 : FVec Ideal S64 .f32)
    (x4 : FVec Ideal S64x64 .f32) (x5 : FVec Ideal S32x64 .f32) (x6 : FVec Ideal S32 .f32) (x7 : FVec Ideal S32x64 .f32)
    (h0 : ∀ j, IsReal (x0 j)) (h2 : ∀ j, IsReal (x2 j)) (h3 : ∀ j, IsReal (x3 j)) (h4 : ∀ j, IsReal (x4 j))
    (h5 : ∀ j, IsReal (x5 j)) (h6 : ∀ j, IsReal (x6 j)) (h7 : ∀ j, IsReal (x7 j)) :
    Cert.KernelIdeal.Folded.resultOfArgs x0 ei x2 x3 x4 x5 x6 x7
      = Cert.ReferenceIdeal.Folded.resultOfArgs ei x0 x2 x3 x4 x5 x6 x7 := by
  have hc : ∀ i, ∃ d : ℝ, d ≠ 0 ∧ (fun i => cntMax ei (ix1 i)) i = (d : EReal) := cnt_real ei
  have hb1 : (fun q : Fin 64 => shapeCast S1x64 x3 shapeCasts_S64_S1x64 (ix2 (0 : Fin 1) q)) = fun q => x3 (ix1 q) :=
    funext fun q => shapeCast_a_1a_apply x3 shapeCasts_S64_S1x64 0 q
  have hb2 : (fun q : Fin 32 => shapeCast S1x32 x6 shapeCasts_S32_S1x32 (ix2 (0 : Fin 1) q)) = fun q => x6 (ix1 q) :=
    funext fun q => shapeCast_a_1a_apply x6 shapeCasts_S32_S1x32 0 q
  have hH : Cert.KernelIdeal.Folded.hiddenOfArgs x0 ei x2 x3 x4
      = hiddenR (nbrTbl (srcCol ei) (dstCol ei) x0) x0 (fun i => cntMax ei (ix1 i))
          (transpose S64x64 [1, 0] x2 transposes_S64x64_S64x64_1_0) (transpose S64x64 [1, 0] x4 transposes_S64x64_S64x64_1_0)
          (fun q => x3 (ix1 q)) := by
    unfold Cert.KernelIdeal.Folded.hiddenOfArgs
    rw [agg64_eq, hidden_agree x0 (invCol ei) (fun i => cntMax ei (ix1 i)) _ _ _ _ hc (inv_eq ei), hb1]
  have hHreal : ∀ j, IsReal (Cert.KernelIdeal.Folded.hiddenOfArgs x0 ei x2 x3 x4 j) := by
    intro j
    rw [hH]
    exact hidden_real x0 (fun i => cntMax ei (ix1 i)) _ _ _ (nbrTbl_real _ _ x0 h0) h0 hc (fun j => h2 _) (fun j => h4 _)
      _ (fun q => h3 _) j
  unfold Cert.KernelIdeal.Folded.resultOfArgs
  have hW : ∀ j, IsReal (transpose S64x32 [1, 0] x5 transposes_S32x64_S64x32_1_0 j) := fun j => by
    unfold transpose; exact h5 _
  rw [agg32_eq, out_agree (srcCol ei) (dstCol ei) (invCol ei) (fun i => cntMax ei (ix1 i))
    (transpose S64x32 [1, 0] x5 transposes_S32x64_S64x32_1_0) (transpose S64x32 [1, 0] x7 transposes_S32x64_S64x32_1_0)
    (shapeCast S1x32 x6 shapeCasts_S32_S1x32) (Cert.KernelIdeal.Folded.hiddenOfArgs x0 ei x2 x3 x4) hHreal hc (inv_eq ei) hW,
    hb2, hH]
  unfold Cert.ReferenceIdeal.Folded.resultOfArgs Cert.ReferenceIdeal.Folded.hiddenOfArgs
  rw [src_same, dst_same, cnt_same]

end Cert.Sage.Bridge

end
-- ==== Proof.lean ====
/-
  Two layers of mean-aggregating graph convolution: a kernel program against its reference, on the extended reals.

  Both programs take node features x, an edge list, and two layers of weights and biases. For every node both form the
  neighbour sum of the source rows of the edges landing on it, and the neighbour count floored at one.

  The kernel program scales the neighbour sums by the reciprocal count inside its first launch, which computes the hidden
  features h = max (mean · W1lᵀ + x · W1rᵀ + b1) 0 block of nodes by block of nodes and ALSO their projection h · W2lᵀ; the
  host then sums the PROJECTED rows over the neighbours, and the second launch computes h · W2rᵀ + (that sum) / count + b2.
  The reference divides the neighbour sums by the count, computes the same hidden features with the bias added in the
  middle, sums the hidden rows over the neighbours, divides, and projects last: mean₂ · W2lᵀ + b2 + h · W2rᵀ.

  The two agree for real inputs (the precondition): x · (1 / c) = x / c for a real c ≥ 1, addition is commutative and
  associative, and averaging commutes with a linear projection of real data (distributivity and an exchange of two finite
  sums, which is where finiteness is used). The kernel program's value is read off its run: each launch's result arrays
  are covered by the blocks its grid points write back, each block the table-level function of the same rows of its
  inputs; the host stretches are read by computation.
-/
import proofs.«164449_j3186865734220_2_alg».proof.Defs
import proofs.«164449_j3186865734220_2_alg».proof.Proof.Gen.Kernel
import proofs.«164449_j3186865734220_2_alg».proof.Proof.Gen.Kernel.Skeleton
import proofs.«164449_j3186865734220_2_alg».proof.Proof.Gen.Kernel.Launch
import proofs.«164449_j3186865734220_2_alg».proof.Proof.Gen.Kernel.Points
import proofs.«164449_j3186865734220_2_alg».proof.Proof.Gen.Kernel.Frame
import proofs.«164449_j3186865734220_2_alg».proof.Proof.Gen.KernelIdeal
import proofs.«164449_j3186865734220_2_alg».proof.Proof.Gen.KernelIdeal.Skeleton
import proofs.«164449_j3186865734220_2_alg».proof.Proof.Gen.KernelIdeal.Launch
import proofs.«164449_j3186865734220_2_alg».proof.Proof.Gen.KernelIdeal.Points
import proofs.«164449_j3186865734220_2_alg».proof.Proof.Gen.KernelIdeal.Frame
import proofs.«164449_j3186865734220_2_alg».proof.Proof.Gen.ReferenceIdeal
import proofs.«164449_j3186865734220_2_alg».proof.Proof.Gen.Pre_finite_inputs
import proofs.«164449_j3186865734220_2_alg».proof.Proof.Gen.ReferenceIdeal.Run
import proofs.«164449_j3186865734220_2_alg».proof.Proof.KernelRun
import proofs.«164449_j3186865734220_2_alg».proof.Proof.KernelValue
import proofs.«164449_j3186865734220_2_alg».proof.Proof.RefValue
import proofs.«164449_j3186865734220_2_alg».proof.Proof.Finite
import proofs.«164449_j3186865734220_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at ONE result: the kernel program's result of its
    arguments, which for real float arguments is the reference's. -/
theorem algebraic : Cert.algebraic_KernelIdeal_ReferenceIdeal := by
  intro m ρ m' ρ' hpre hagree
  refine ⟨fun c => Cert.KernelIdeal.Folded.resultOfArgs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Folded.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    obtain ⟨r0, r2, r3, r4, r5, r6, r7⟩ := Cert.Sage.Finite.real_of_pre _ _ _ _ _ _ _ _ (hpre c)
    obtain ⟨a0, a1, a2, a3, a4, a5, a6, a7⟩ := hagree c
    rw [Cert.ReferenceIdeal.Folded.res_eq, Cert.ReferenceIdeal.Folded.resultTerm_eq, a0, a1, a2, a3, a4, a5, a6, a7]
    exact (Cert.Sage.Bridge.results_agree _ _ _ _ _ _ _ _ r0 r2 r3 r4 r5 r6 r7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
